-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S1600000 : Shape := ⟨1, ![1600000]⟩
abbrev S100000 : Shape := ⟨1, ![100000]⟩
abbrev S128x256 : Shape := ⟨2, ![128, 256]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64x128 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg6
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x256 .f32) (main_arg1 : IVec S2x1600000 32) (main_arg2 : FVec F S1600000 .f32) (main_arg3 : IVec S100000 32) (main_arg4 : FVec F S128x256 .f32) (main_arg5 : FVec F S128 .f32) (main_arg6 : FVec F S64x128 .f32) (main_arg7 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S100000x256 : Shape := ⟨2, ![100000, 256]⟩
abbrev S2x1600000 : Shape := ⟨2, ![2, 1600000]⟩
abbrev S1600000 : Shape := ⟨1, ![1600000]⟩
abbrev S100000 : Shape := ⟨1, ![100000]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S_ : Shape := ⟨0, ![]⟩
abbrev S1600000x1 : Shape := ⟨2, ![1600000, 1]⟩
abbrev S100000x1 : Shape := ⟨2, ![100000, 1]⟩
abbrev S256x128 : Shape := ⟨2, ![256, 128]⟩
abbrev S128x64 : Shape := ⟨2, ![128, 64]⟩
abbrev S100000x128 : Shape := ⟨2, ![100000, 128]⟩
abbrev S5000x256 : Shape := ⟨2, ![5000, 256]⟩
abbrev S5000x128 : Shape := ⟨2, ![5000, 128]⟩
abbrev S1600000x128 : Shape := ⟨2, ![1600000, 128]⟩
abbrev S1x128 : Shape := ⟨2, ![1, 128]⟩
abbrev S5000x1 : Shape := ⟨2, ![5000, 1]⟩
abbrev S100000x64 : Shape := ⟨2, ![100000, 64]⟩
abbrev S5000x64 : Shape := ⟨2, ![5000, 64]⟩
abbrev S1600000x64 : Shape := ⟨2, ![1600000, 64]⟩
abbrev S1x64 : Shape := ⟨2, ![1, 64]⟩

abbrev nBuf : Space → Nat
  | .hbm => 90
  | .vmem => 28
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S1600000, .f32⟩
  | .hbm, ⟨3, _⟩ => ⟨S100000, .i32⟩
  | .hbm, ⟨4, _⟩ => ⟨S128x256, .f32⟩
  | .hbm, ⟨5, _⟩ => ⟨S128, .f32⟩
  | .hbm, ⟨6, _⟩ => ⟨S64x128, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S1600000, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000, .f32⟩
  | .hbm, ⟨48, _⟩ => ⟨S1600000, .f32⟩
  | .hbm, ⟨49, _⟩ => ⟨S100000x1, .f32⟩
  | .hbm, ⟨50, _⟩ => ⟨S256x128, .f32⟩
  | .hbm, ⟨51, _⟩ => ⟨S128x64, .f32⟩
  | .hbm, ⟨52, _⟩ => ⟨S100000x128, .f32⟩
  | .hbm, ⟨53, _⟩ => ⟨S1600000x1, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x128, .f32⟩
  | .hbm, ⟨63, _⟩ => ⟨S1600000x128, .f32⟩
  | .hbm, ⟨64, _⟩ => ⟨S1600000x128, .f32⟩
  | .hbm, ⟨65, _⟩ => ⟨S_, .f32⟩
  | .hbm, ⟨66, _⟩ => ⟨S100000x128, .f32⟩
  | .hbm, ⟨67, _⟩ => ⟨S1600000x1, .i32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x64, .f32⟩
  | .hbm, ⟨72, _⟩ => ⟨S1600000x1, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000x64, .f32⟩
  | .hbm, ⟨82, _⟩ => ⟨S1600000x64, .f32⟩
  | .hbm, ⟨83, _⟩ => ⟨S1600000x64, .f32⟩
  | .hbm, ⟨84, _⟩ => ⟨S_, .f32⟩
  | .hbm, ⟨85, _⟩ => ⟨S100000x64, .f32⟩
  | .hbm, ⟨86, _⟩ => ⟨S1600000x1, .i32⟩
  | .hbm, ⟨87, _⟩ => ⟨S100000x64, .f32⟩
  | .hbm, ⟨88, _⟩ => ⟨S1x64, .f32⟩
  | .hbm, ⟨89, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x1, .f32⟩
  | .local _ .vmem, ⟨8, _⟩ => ⟨S5000x1, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x1, .f32⟩
  | .local _ .vmem, ⟨22, _⟩ => ⟨S5000x1, .f32⟩
  | .local _ .vmem, ⟨23, _⟩ => ⟨S5000x64, .f32⟩
  | .local _ .vmem, ⟨24, _⟩ => ⟨S5000x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  shapeCasts_S100000_S100000x1 : S100000.ShapeCasts S100000x1
  transposes_S128x256_S256x128_1_0 : S128x256.Transposes [1, 0] S256x128
  transposes_S64x128_S128x64_1_0 : S64x128.Transposes [1, 0] S128x64
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S5000x128_S5000x128_0_0 : ∀ a, (![0, 0] : Fin 2 → Nat) a + S5000x128.size a ≤ S5000x128.size a
  h_S5000x128 : 0 < S5000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x128_S5000x128 : S5000x128.ShapeCasts S5000x128
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v48) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v62) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v49) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v63) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v64) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S1600000 : Shape := ⟨1, ![1600000]⟩
abbrev S100000 : Shape := ⟨1, ![100000]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S256x128 : Shape := ⟨2, ![256, 128]⟩
abbrev S100000x128 : Shape := ⟨2, ![100000, 128]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 141
  | .vmem => 0
  | .smem => 0
  | _ => 0

abbrev hbmTy0_0 (i : Nat) : BufTy := match i % 128 with
  | 0 => ⟨S100000x256, .f32⟩
  | 1 => ⟨S2x1600000, .i32⟩
  | 2 => ⟨S1600000, .f32⟩
  | 3 => ⟨S100000, .i32⟩
  | 4 => ⟨S128x256, .f32⟩
  | 5 => ⟨S128, .f32⟩
  | 6 => ⟨S64x128, .f32⟩
  | 7 => ⟨S64, .f32⟩
  | 8 => ⟨S1x1600000, .i32⟩
  | 9 => ⟨S1600000, .i32⟩
  | 10 => ⟨S1x1600000, .i32⟩
  | 11 => ⟨S1600000, .i32⟩
  | 12 => ⟨S256x128, .f32⟩
  | 13 => ⟨S100000x128, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S1600000, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000, .f32⟩
  | 50 => ⟨S1600000, .f32⟩
  | 51 => ⟨S1600000x1, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x128, .f32⟩
  | 61 => ⟨S1600000x128, .f32⟩
  | 62 => ⟨S1600000x128, .f32⟩
  | 63 => ⟨S_, .f32⟩
  | 64 => ⟨S100000x128, .f32⟩
  | 65 => ⟨S1600000x1, .i32⟩
  | 66 => ⟨S100000x128, .f32⟩
  | 67 => ⟨S100000, .f32⟩
  | 68 => ⟨S100000x1, .f32⟩
  | 69 => ⟨S100000x128, .f32⟩
  | 70 => ⟨S100000x128, .f32⟩
  | 71 => ⟨S100000x128, .f32⟩
  | 72 => ⟨S1x128, .f32⟩
  | 73 => ⟨S100000x128, .f32⟩
  | 74 => ⟨S100000x128, .f32⟩
  | 75 => ⟨S_, .f32⟩
  | 76 => ⟨S100000x128, .f32⟩
  | 77 => ⟨S100000x128, .f32⟩
  | 78 => ⟨S128x64, .f32⟩
  | 79 => ⟨S100000x64, .f32⟩
  | 80 => ⟨S_, .f32⟩
  | 81 => ⟨S100000, .f32⟩
  | 82 => ⟨S1600000x1, .i32⟩
  | 83 => ⟨S100000, .f32⟩
  | 84 => ⟨S_, .f32⟩
  | 85 => ⟨S100000, .f32⟩
  | 86 => ⟨S100000, .f32⟩
  | 87 => ⟨S_, .f32⟩
  | 88 => ⟨S100000, .f32⟩
  | 89 => ⟨S100000, .i1⟩
  | 90 => ⟨S_, .f32⟩
  | 91 => ⟨S100000, .f32⟩
  | 92 => ⟨S100000, .f32⟩
  | 93 => ⟨S_, .f32⟩
  | 94 => ⟨S_, .f32⟩
  | 95 => ⟨S100000, .f32⟩
  | 96 => ⟨S100000, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000, .f32⟩
  | 106 => ⟨S1600000, .f32⟩
  | 107 => ⟨S_, .i32⟩
  | 108 => ⟨S1600000, .i32⟩
  | 109 => ⟨S1600000, .i1⟩
  | 110 => ⟨S_, .i32⟩
  | 111 => ⟨S1600000, .i32⟩
  | 112 => ⟨S1600000, .i32⟩
  | 113 => ⟨S1600000, .i32⟩
  | 114 => ⟨S1600000x1, .i32⟩
  | 115 => ⟨S1600000, .f32⟩
  | 116 => ⟨S1600000, .f32⟩
  | 117 => ⟨S1600000x1, .f32⟩
  | 118 => ⟨S_, .i32⟩
  | 119 => ⟨S1600000, .i32⟩
  | 120 => ⟨S1600000, .i1⟩
  | 121 => ⟨S_, .i32⟩
  | 122 => ⟨S1600000, .i32⟩
  | 123 => ⟨S1600000, .i32⟩
  | 124 => ⟨S1600000, .i32⟩
  | 125 => ⟨S1600000x1, .i32⟩
  | 126 => ⟨S1600000x64, .f32⟩
  | 127 => ⟨S1600000x64, .f32⟩
  | _ => ⟨S100000x256, .f32⟩

abbrev hbmTy0_1 (i : Nat) : BufTy := match i % 128 with
  | 0 => ⟨S1600000x64, .f32⟩
  | 1 => ⟨S_, .f32⟩
  | 2 => ⟨S100000x64, .f32⟩
  | 3 => ⟨S1600000x1, .i32⟩
  | 4 => ⟨S100000x64, .f32⟩
  | 5 => ⟨S100000, .f32⟩
  | 6 => ⟨S100000x1, .f32⟩
  | 7 => ⟨S100000x64, .f32⟩
  | 8 => ⟨S100000x64, .f32⟩
  | 9 => ⟨S100000x64, .f32⟩
  | 10 => ⟨S1x64, .f32⟩
  | 11 => ⟨S100000x64, .f32⟩
  | 12 => ⟨S100000x64, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call1_cst : Ref sig .tc := ⟨.hbm, 75, rfl⟩
abbrev main_call1_v0 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_10 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_cst_13 : Ref sig .tc := ⟨.hbm, 90, rfl⟩
abbrev main_v63 : Ref sig .tc := ⟨.hbm, 91, rfl⟩
abbrev main_v64 : Ref sig .tc := ⟨.hbm, 92, rfl⟩
abbrev main_cst_14 : Ref sig .tc := ⟨.hbm, 93, rfl⟩
abbrev main_call2_v0 : Ref sig .tc := ⟨.hbm, 94, rfl⟩
abbrev main_call2_v1 : Ref sig .tc := ⟨.hbm, 95, rfl⟩
abbrev main_v65 : Ref sig .tc := ⟨.hbm, 96, rfl⟩
abbrev main_c_15 : Ref sig .tc := ⟨.hbm, 97, rfl⟩
abbrev main_v66 : Ref sig .tc := ⟨.hbm, 98, rfl⟩
abbrev main_v67 : Ref sig .tc := ⟨.hbm, 99, rfl⟩
abbrev main_c_16 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_c_17 : Ref sig .tc := ⟨.hbm, 107, rfl⟩
abbrev main_v74 : Ref sig .tc := ⟨.hbm, 108, rfl⟩
abbrev main_v75 : Ref sig .tc := ⟨.hbm, 109, rfl⟩
abbrev main_c_18 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_c_19 : Ref sig .tc := ⟨.hbm, 118, rfl⟩
abbrev main_v83 : Ref sig .tc := ⟨.hbm, 119, rfl⟩
abbrev main_v84 : Ref sig .tc := ⟨.hbm, 120, rfl⟩
abbrev main_c_20 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_21 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S128x256_S256x128_1_0 : S128x256.Transposes [1, 0] S256x128
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x256_S256x128_S100000x128_1_0_0_1_n_n_wf : DotDims.WF S100000x256 S256x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The kernel program's run with its result named.

  The program is four tiled regions among stretches of host operations. Every weakly fair execution of it
  terminates without a fault, leaves the eight argument arrays as launched, and leaves the result array at the
  contents the fold through the program's segments ends with: the last region's output window, written back block
  by block over what the host stretch before it computed. The statement is the frame run with one more buffer read
  off the final thread state.
-/
import proofs.«168217_j52544629899901_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- Every weakly fair execution of the program terminates, nothing faulting; the result array ends at the last
    boundary's contents and the argument arrays as launched. -/
theorem run : θ_run defs (onTc (τ := τ) (main (F := F))) ⟨m, fun _ => 0, ρ⟩ (fun r => ∀ c : Dev nD,
      r.2.mem ((c.tc : Thread nD τ).loc main_v64) = W9 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v64 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.RunValue

end
-- ==== Proof.RefTwice.lean ====
/-
  The reference computes the degree normalisation twice.

  Each of the reference's two layers recomputes, from the edge list and the edge weights alone, the inverse square
  root of the weighted in-degree plus one (zero where that degree is not positive) and, from it, the per-edge
  normalisation dinv[row] · w · dinv[col]. The second computation is the first one spelt again, operation for
  operation, so the two vectors are one function of the edge list and the weights; the kernel computes it once.
-/
import proofs.«168217_j52544629899901_1_alg».proof.Proof.Gen.ReferenceIdeal.Read

noncomputable section

namespace Cert.ReferenceIdeal.Twice

open Cert.ReferenceIdeal Cert.ReferenceIdeal.Read Idealize.ShloMosaic

/-- The second layer's inverse-square-root degree vector is the first layer's. -/
theorem dinv_again (x1 : (⟨S2x1600000, .i32⟩ : BufTy).Contents (Elt Ideal)) (x2 : (⟨S1600000, .f32⟩ : BufTy).Contents (Elt Ideal)) :
    val_main_v65 (F := Ideal) x1 x2 = val_main_v15 (F := Ideal) x1 x2 := rfl

/-- The second layer's per-edge normalisation is the first layer's. -/
theorem norm_again (x1 : (⟨S2x1600000, .i32⟩ : BufTy).Contents (Elt Ideal)) (x2 : (⟨S1600000, .f32⟩ : BufTy).Contents (Elt Ideal)) :
    val_main_v81 (F := Ideal) x1 x2 = val_main_v31 (F := Ideal) x1 x2 := by
  unfold val_main_v81 val_main_v80 val_main_v73 val_main_v72
  rw [dinv_again]
  rfl

end Cert.ReferenceIdeal.Twice

end
-- ==== Proof.LibHostFold.lean ====
/-
  Folding a straight line of host operations in two parts, and the transports its inlined calls carry.

  The buffers' contents after a list of host operations is a left fold of the operations' results over the contents at
  the start; so the fold of a concatenation is the fold of its second part over the fold of its first (after_append), and
  a long program can be read in stretches with the contents in between kept as one term.

  The operations of a function inlined at its call site carry each operand through a transport along the equation
  between its buffer's declared type and the value's type: to the buffer's type when written, back when read. A value
  carried there and back is the value (ofBuf_toBuf); and, the two types being one, a single transport of a value is that
  value, stated through heterogeneous equality so that the equation is found by the types' computation at the use site
  (ofBuf_eq, toBuf_eq: give `HEq.rfl`, or `heq_of_eq` of an equation between the two sides read at one type). Removing
  the transports by these lemmas, syntactically, before two composed terms are compared keeps the comparison from
  computing through the transports.
-/
import Idealize.ShloMosaic.Lib.StableHlo.Run

namespace Cert.HostFold

open Idealize.ShloMosaic Idealize.ShloMosaic.StableHlo

variable {τ : Topo} {sig : RefSig} {Val : EltTy → Type}

/-- Folding a concatenation is folding its second part over the fold of its first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A value carried to its buffer's type and back is the value. -/
theorem ofBuf_toBuf {T : BufTy} (x : TRef sig T) (v : T.Contents Val) : x.ofBuf (x.toBuf v) = v := by
  obtain ⟨r, hty, h2, h3⟩ := x
  subst hty
  rfl

/-- Contents read at the value's type are the contents, when the two are one term up to the types' equation. -/
theorem ofBuf_eq {T : BufTy} (x : TRef sig T) (v : x.ref.ty.Contents Val) (w : T.Contents Val) (h : HEq v w) :
    x.ofBuf v = w := by
  obtain ⟨r, hty, h2, h3⟩ := x
  subst hty
  exact eq_of_heq h

/-- A value carried to its buffer's type is the value, likewise. -/
theorem toBuf_eq {T : BufTy} (x : TRef sig T) (v : T.Contents Val) (w : x.ref.ty.Contents Val) (h : HEq v w) :
    x.toBuf v = w := by
  obtain ⟨r, hty, h2, h3⟩ := x
  subst hty
  exact eq_of_heq h

end Cert.HostFold
-- ==== Proof.HostStretches.lean ====
/-
  The kernel program's five stretches of host operations, each read at the buffers later segments use.

  For any contents A of the buffers when a stretch is entered, the contents after it are, at each buffer the stretch
  writes, the stretch's operations applied to A, and A itself at every other buffer. The operations are the reference's
  own, in the same order: the row and column vectors cut from the edge list, the weighted in-degree plus one by a
  scatter-add, its inverse square root where positive, the per-edge normalisation dinv[row] · w · dinv[col] through
  two gathers at indices wrapped into range, the two transposed weight matrices, and per layer the gather of the
  projected rows, their scaling and the scatter-add into the aggregate. So each written buffer is stated as the
  reference's stage of that name applied to the argument arrays, given that the buffers the stretch reads hold the
  stages they should.
-/
import proofs.«168217_j52544629899901_1_alg».proof.Proof.Gen.KernelIdeal.Launch
import proofs.«168217_j52544629899901_1_alg».proof.Proof.Gen.ReferenceIdeal.Read
import proofs.«168217_j52544629899901_1_alg».proof.Proof.RefTwice
import proofs.«168217_j52544629899901_1_alg».proof.Proof.LibHostFold
import Idealize.ShloMosaic.Lib.StableHlo.Run

set_option maxRecDepth 16384

noncomputable section

namespace Cert.KernelIdeal.Stretches

open Idealize.ShloMosaic Idealize.ShloMosaic.TcCoe Idealize.SL.Sem Idealize.ShloMosaic.StableHlo
open Cert.KernelIdeal Cert.KernelIdeal.Gen
open Cert.ReferenceIdeal.Read

variable (A : Valuation τ sig (Elt Ideal))
variable (x0 : (⟨S100000x256, .f32⟩ : BufTy).Contents (Elt Ideal))
  (x1 : (⟨S2x1600000, .i32⟩ : BufTy).Contents (Elt Ideal))
  (x2 : (⟨S1600000, .f32⟩ : BufTy).Contents (Elt Ideal))
  (x4 : (⟨S128x256, .f32⟩ : BufTy).Contents (Elt Ideal))
  (x5 : (⟨S128, .f32⟩ : BufTy).Contents (Elt Ideal))
  (x6 : (⟨S64x128, .f32⟩ : BufTy).Contents (Elt Ideal))
  (x7 : (⟨S64, .f32⟩ : BufTy).Contents (Elt Ideal))

/-! ## The first stretch: rows, columns, the degree mask and the inverse square root -/

/-- The edges' source rows. -/
theorem S0_v1 (h1 : A (Proc.devRef .tc main_arg1) = x1) :
    after hostOps0 A (Proc.devRef .tc main_v1) = val_main_v1 (F := Ideal) x1 := by
  after_results_simp
  rw [h1]
  rfl
/-- The edges' target columns. -/
theorem S0_v3 (h1 : A (Proc.devRef .tc main_arg1) = x1) :
    after hostOps0 A (Proc.devRef .tc main_v3) = val_main_v3 (F := Ideal) x1 := by
  after_results_simp
  rw [h1]
  rfl
/-- Where the weighted in-degree plus one is positive. -/
theorem S0_v10 (h1 : A (Proc.devRef .tc main_arg1) = x1) (h2 : A (Proc.devRef .tc main_arg2) = x2) :
    after hostOps0 A (Proc.devRef .tc main_v10) = val_main_v12 (F := Ideal) x1 x2 := by
  after_results_simp
  rw [h1, h2]
  rfl
/-- The weighted in-degree plus one to the power minus one half. -/
theorem S0_v12 (h1 : A (Proc.devRef .tc main_arg1) = x1) (h2 : A (Proc.devRef .tc main_arg2) = x2) :
    after hostOps0 A (Proc.devRef .tc main_v12) = val_main_v14 (F := Ideal) x1 x2 := by
  after_results_simp
  rw [h1, h2]
  rfl
/-- The zero that fills the rows of non-positive degree. -/
theorem S0_cst_3 :
    after hostOps0 A (Proc.devRef .tc main_cst_3) = val_main_cst_3 (F := Ideal) := by
  after_results_simp
  rfl
theorem K0_arg0 : after hostOps0 A (Proc.devRef .tc main_arg0) = A (Proc.devRef .tc main_arg0) := by after_results_simp
theorem K0_arg2 : after hostOps0 A (Proc.devRef .tc main_arg2) = A (Proc.devRef .tc main_arg2) := by after_results_simp
theorem K0_arg4 : after hostOps0 A (Proc.devRef .tc main_arg4) = A (Proc.devRef .tc main_arg4) := by after_results_simp
theorem K0_arg5 : after hostOps0 A (Proc.devRef .tc main_arg5) = A (Proc.devRef .tc main_arg5) := by after_results_simp
theorem K0_arg6 : after hostOps0 A (Proc.devRef .tc main_arg6) = A (Proc.devRef .tc main_arg6) := by after_results_simp
theorem K0_arg7 : after hostOps0 A (Proc.devRef .tc main_arg7) = A (Proc.devRef .tc main_arg7) := by after_results_simp

/-! ## The second stretch: the selection between the power and zero -/

/-- The inverse square root of the degree, zero where the degree is not positive. -/
theorem S1_v13 (h10 : A (Proc.devRef .tc main_v10) = val_main_v12 (F := Ideal) x1 x2) (h12 : A (Proc.devRef .tc main_v12) = val_main_v14 (F := Ideal) x1 x2) (h3 : A (Proc.devRef .tc main_cst_3) = val_main_cst_3 (F := Ideal)) :
    after hostOps0_1 A (Proc.devRef .tc main_v13) = val_main_v15 (F := Ideal) x1 x2 := by
  after_results_simp
  rw [h10, h12, h3]
  simp only [Cert.HostFold.ofBuf_toBuf]
  rw [Cert.HostFold.toBuf_eq _ _ _ HEq.rfl, Cert.HostFold.ofBuf_eq _ _ (val_main_v12 (F := Ideal) x1 x2) HEq.rfl,
    Cert.HostFold.ofBuf_eq _ _ (val_main_v14 (F := Ideal) x1 x2) HEq.rfl, Cert.HostFold.ofBuf_eq _ _ (val_main_cst_3 (F := Ideal)) HEq.rfl]
  rfl
theorem K1_v1 : after hostOps0_1 A (Proc.devRef .tc main_v1) = A (Proc.devRef .tc main_v1) := by after_results_simp
theorem K1_v3 : after hostOps0_1 A (Proc.devRef .tc main_v3) = A (Proc.devRef .tc main_v3) := by after_results_simp
theorem K1_arg0 : after hostOps0_1 A (Proc.devRef .tc main_arg0) = A (Proc.devRef .tc main_arg0) := by after_results_simp
theorem K1_arg2 : after hostOps0_1 A (Proc.devRef .tc main_arg2) = A (Proc.devRef .tc main_arg2) := by after_results_simp
theorem K1_arg4 : after hostOps0_1 A (Proc.devRef .tc main_arg4) = A (Proc.devRef .tc main_arg4) := by after_results_simp
theorem K1_arg5 : after hostOps0_1 A (Proc.devRef .tc main_arg5) = A (Proc.devRef .tc main_arg5) := by after_results_simp
theorem K1_arg6 : after hostOps0_1 A (Proc.devRef .tc main_arg6) = A (Proc.devRef .tc main_arg6) := by after_results_simp
theorem K1_arg7 : after hostOps0_1 A (Proc.devRef .tc main_arg7) = A (Proc.devRef .tc main_arg7) := by after_results_simp

/-! ## The third stretch: the per-edge normalisation, the degree column and the transposed weights -/

/-- The per-edge normalisation dinv[row] · w · dinv[col]. -/
theorem S2_v29 (h1 : A (Proc.devRef .tc main_v1) = val_main_v1 (F := Ideal) x1) (h3 : A (Proc.devRef .tc main_v3) = val_main_v3 (F := Ideal) x1) (h13 : A (Proc.devRef .tc main_v13) = val_main_v15 (F := Ideal) x1 x2) (h2 : A (Proc.devRef .tc main_arg2) = x2) :
    after hostOps0_2 A (Proc.devRef .tc main_v29) = val_main_v31 (F := Ideal) x1 x2 := by
  after_results_simp
  rw [h1, h3, h13, h2]
  rfl
/-- The inverse-square-root degrees as a column. -/
theorem S2_v30 (h13 : A (Proc.devRef .tc main_v13) = val_main_v15 (F := Ideal) x1 x2) :
    after hostOps0_2 A (Proc.devRef .tc main_v30) = shapeCast S100000x1 (val_main_v15 (F := Ideal) x1 x2) shapeCasts_S100000_S100000x1 := by
  after_results_simp
  rw [h13]
  rfl
/-- The first layer's weights, transposed. -/
theorem S2_v31 (h4 : A (Proc.devRef .tc main_arg4) = x4) :
    after hostOps0_2 A (Proc.devRef .tc main_v31) = val_main_v4 (F := Ideal) x4 := by
  after_results_simp
  rw [h4]
  rfl
/-- The second layer's weights, transposed. -/
theorem S2_v32 (h6 : A (Proc.devRef .tc main_arg6) = x6) :
    after hostOps0_2 A (Proc.devRef .tc main_v32) = val_main_v54 (F := Ideal) x6 := by
  after_results_simp
  rw [h6]
  rfl
theorem K2_v1 : after hostOps0_2 A (Proc.devRef .tc main_v1) = A (Proc.devRef .tc main_v1) := by after_results_simp
theorem K2_v3 : after hostOps0_2 A (Proc.devRef .tc main_v3) = A (Proc.devRef .tc main_v3) := by after_results_simp
theorem K2_arg0 : after hostOps0_2 A (Proc.devRef .tc main_arg0) = A (Proc.devRef .tc main_arg0) := by after_results_simp
theorem K2_arg5 : after hostOps0_2 A (Proc.devRef .tc main_arg5) = A (Proc.devRef .tc main_arg5) := by after_results_simp
theorem K2_arg7 : after hostOps0_2 A (Proc.devRef .tc main_arg7) = A (Proc.devRef .tc main_arg7) := by after_results_simp

/-! ## The stretch between the first product and the first combine: the first layer's aggregate -/

/-- The scaled projected rows of the edges' sources, summed into their targets. -/
theorem S3_v46 (h29 : A (Proc.devRef .tc main_v29) = val_main_v31 (F := Ideal) x1 x2) (h1 : A (Proc.devRef .tc main_v1) = val_main_v1 (F := Ideal) x1) (h3 : A (Proc.devRef .tc main_v3) = val_main_v3 (F := Ideal) x1) (h33 : A (Proc.devRef .tc main_v33) = val_main_v5 (F := Ideal) x0 x4) :
    after hostOps1 A (Proc.devRef .tc main_v46) = val_main_v44 (F := Ideal) x0 x1 x2 x4 := by
  after_results_simp
  rw [h29, h1, h3, h33]
  rfl
/-- The first bias as a row. -/
theorem S3_v47 (h5 : A (Proc.devRef .tc main_arg5) = x5) :
    after hostOps1 A (Proc.devRef .tc main_v47) = shapeCast S1x128 x5 shapeCasts_S128_S1x128 := by
  after_results_simp
  rw [h5]
  rfl
theorem K3_v30 : after hostOps1 A (Proc.devRef .tc main_v30) = A (Proc.devRef .tc main_v30) := by after_results_simp
theorem K3_v33 : after hostOps1 A (Proc.devRef .tc main_v33) = A (Proc.devRef .tc main_v33) := by after_results_simp
theorem K3_v32 : after hostOps1 A (Proc.devRef .tc main_v32) = A (Proc.devRef .tc main_v32) := by after_results_simp
theorem K3_v29 : after hostOps1 A (Proc.devRef .tc main_v29) = A (Proc.devRef .tc main_v29) := by after_results_simp
theorem K3_v1 : after hostOps1 A (Proc.devRef .tc main_v1) = A (Proc.devRef .tc main_v1) := by after_results_simp
theorem K3_v3 : after hostOps1 A (Proc.devRef .tc main_v3) = A (Proc.devRef .tc main_v3) := by after_results_simp
theorem K3_arg7 : after hostOps1 A (Proc.devRef .tc main_arg7) = A (Proc.devRef .tc main_arg7) := by after_results_simp

/-! ## The stretch between the second product and the second combine: the second layer's aggregate -/

/-- The same aggregate over the second layer's projected rows; the normalisation is the reference's second computation of it. -/
theorem S4_v62 (h29 : A (Proc.devRef .tc main_v29) = val_main_v81 (F := Ideal) x1 x2) (h1 : A (Proc.devRef .tc main_v1) = val_main_v1 (F := Ideal) x1) (h3 : A (Proc.devRef .tc main_v3) = val_main_v3 (F := Ideal) x1) (h49 : A (Proc.devRef .tc main_v49) = val_main_v55 (F := Ideal) x0 x1 x2 x4 x5 x6) :
    after hostOps3 A (Proc.devRef .tc main_v62) = val_main_v94 (F := Ideal) x0 x1 x2 x4 x5 x6 := by
  after_results_simp
  rw [h29, h1, h3, h49]
  rfl
/-- The second bias as a row. -/
theorem S4_v63 (h7 : A (Proc.devRef .tc main_arg7) = x7) :
    after hostOps3 A (Proc.devRef .tc main_v63) = shapeCast S1x64 x7 shapeCasts_S64_S1x64 := by
  after_results_simp
  rw [h7]
  rfl
theorem K4_v30 : after hostOps3 A (Proc.devRef .tc main_v30) = A (Proc.devRef .tc main_v30) := by after_results_simp
theorem K4_v49 : after hostOps3 A (Proc.devRef .tc main_v49) = A (Proc.devRef .tc main_v49) := by after_results_simp

end Cert.KernelIdeal.Stretches

end
-- ==== Proof.LibPlainDot.lean ====
/-
  A plain matrix product [M, K] × [K, N] read at an index over the extended reals.

  With the contraction on the left operand's axis 1 and the right operand's axis 0 and no batch axis, the product's
  entry (p, q) is the sum over k of lhs (p, k) · rhs (k, q): for a matrix unit's product into a zero accumulator
  (matmul_zero_apply) and for the host's dot_general (dotGeneral_apply) alike, whatever precision or schedule key
  they carry. Both follow from re-indexing the sum over the one-axis contraction shape by its coordinate (contr_sum).
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat}

/-- The dimension numbers of the plain product. -/
abbrev plainDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF ⟨2, ![M, K]⟩ ⟨2, ![K, N]⟩ ⟨2, ![M, N]⟩ [1] [0] [0] [1] [] [])

/-- The left operand's row coordinate is the result's row, whatever the contraction index. -/
theorem lhs_row (j : (⟨2, ![M, N]⟩ : Shape).Idx) (r : (plainDims M K N wf).contr.Idx) :
    ((plainDims M K N wf).lhsIdx j r 0).val = (j 0).val := by
  unfold DotDims.lhsIdx
  rw [dif_neg (show ¬ (0 : Fin 2) ∈ (plainDims M K N wf).lhsBatch from List.not_mem_nil),
    dif_pos (show (0 : Fin 2) ∈ (plainDims M K N wf).lhsNonContracting from List.mem_singleton.mpr rfl)]
  rfl

/-- The right operand's column coordinate is the result's column, whatever the contraction index. -/
theorem rhs_col (j : (⟨2, ![M, N]⟩ : Shape).Idx) (r : (plainDims M K N wf).contr.Idx) :
    ((plainDims M K N wf).rhsIdx j r 1).val = (j 1).val := by
  unfold DotDims.rhsIdx
  rw [dif_neg (show ¬ (1 : Fin 2) ∈ (plainDims M K N wf).rhsBatch from List.not_mem_nil),
    dif_pos (show (1 : Fin 2) ∈ (plainDims M K N wf).rhsNonContracting from List.mem_singleton.mpr rfl)]
  rfl

/-- The sum over the contraction shape is the sum over k of lhs (p, k) · rhs (k, q). -/
theorem contr_sum (lhs : (⟨2, ![M, K]⟩ : Shape).Idx → EReal) (rhs : (⟨2, ![K, N]⟩ : Shape).Idx → EReal) (p : Fin M) (q : Fin N) :
    ∑ k : (plainDims M K N wf).contr.Idx, lhs ((plainDims M K N wf).lhsIdx (ix2 p q) k) * rhs ((plainDims M K N wf).rhsIdx (ix2 p q) k)
      = ∑ k : Fin K, lhs (ix2 p k) * rhs (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact ((plainDims M K N wf).lhsIdx_val_of_single rfl _ _).trans hk)
  have er : (plainDims M K N wf).rhsIdx (ix2 p q) ((contrEquiv1 (plainDims M K N wf) K rfl rfl).symm k) = ix2 k q :=
    funext fun a => Fin.ext (by
      match a with
      | ⟨0, _⟩ => exact ((plainDims M K N wf).rhsIdx_val_of_single rfl _ _).trans hk
      | ⟨1, _⟩ => exact rhs_col wf _ _)
  rw [el, er]

/-- A MATRIX UNIT'S PRODUCT INTO A ZERO ACCUMULATOR, read at (p, q), for ANY dimension numbers of the plain form. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.matmul_constant_zero_apply]
  exact contr_sum wf lhs rhs p q

/-- THE HOST'S dot_general, read at (p, q), for ANY dimension numbers of the plain form. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.dotGeneral_apply]
  exact contr_sum wf lhs rhs p q

end Cert.PlainDot

end
-- ==== Proof.MatmulRegion.lean ====
/-
  The two tiled matrix products of the kernel program, each as one product of whole arrays.

  A product region walks the rows of its left array in 20 blocks of 5000; at each grid point its body multiplies the
  block by the whole right array into a zero accumulator and stores the 5000 result rows. Over the extended reals the
  narrowing of the operands to bf16 is the identity and the accumulated product is the exact sum over the contraction
  index, so entry (r, q) of the array the region leaves is the sum over k of left (r, k) · right (k, q), whatever block
  r lies in: the blocks cover the array, and the array is the host's dot_general of the two whole arrays.
-/
import proofs.«168217_j52544629899901_1_alg».proof.Proof.Gen.KernelIdeal.Frame
import proofs.«168217_j52544629899901_1_alg».proof.ReferenceIdeal
import proofs.«168217_j52544629899901_1_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.MatmulRegion

open Cert.KernelIdeal Cert.KernelIdeal.Gen Idealize.ShloMosaic Idealize.ShloMosaic.TcCoe Idealize.SL.Sem
open Idealize.ShloMosaic.ValueIdx
open Idealize.ShloMosaic.Pipeline (Dat)

variable [Cert.ReferenceIdeal.Facts₀]
variable (V : (c : Dev nD) → (b : Ref sig .tc) → Buf (Elt Ideal) ((c : Thread nD τ).loc b))

/-! # Region 0: the row-tiled product x · W1ᵀ -/

/-- The zero offsets of a store or load of a whole block. -/
theorem hz : (![0, 0] : Fin 2 → Nat) = fun _ => 0 := funext fun a => by fin_cases a <;> rfl

/-- The product of the whole arrays, entry by entry. -/
abbrev G0 (x : S100000x256.Idx → Elt Ideal .f32) (w : S256x128.Idx → Elt Ideal .f32) : S100000x128.Idx → Elt Ideal .f32 :=
  fun i => ∑ k : Fin 256, x (ix2 (n0 := 100000) (n1 := 256) (i 0) k) * w (ix2 (n0 := 256) (n1 := 128) k (i 1))

/-- The body's payload at (p, q): over the extended reals the narrowing to bf16 is the identity and the product into a
    zero accumulator is the exact sum over the 256 contraction indices. -/
theorem pay0_apply (x0 : Vec Ideal S5000x256 .f32) (x1 : Vec Ideal S256x128 .f32) (p : Fin 5000) (q : Fin 128) :
    k0_pay1 (F := Ideal) x0 x1 (ix2 p q) = ∑ k : Fin 256, x0 (ix2 p k) * x1 (ix2 k q) := by
  unfold k0_pay1
  rw [shapeCast_self]
  exact Cert.PlainDot.matmul_zero_apply dot_S5000x256_S256x128_S5000x128_1_0_0_1_n_n rfl rfl rfl rfl rfl rfl none _ _ p q

/-- The index maps, decided over the 20 grid points: the left operand's and the output's row block is the point, the
    right operand's block is always the whole array. -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- Window 0's block at point t, read at (p, k), is the left array at row t · 5000 + p. -/
theorem iblk0_0_apply (c : Dev nD) (t : Fin cfg0.N) (p : Fin 5000) (k : Fin 256) (r : Fin 100000)
    (hr : r.val = t.val * 5000 + p.val) :
    (iblk0 V c 0 t : Vec Ideal S5000x256 .f32) (ix2 p k) = (V c main_arg0 : S100000x256.Idx → Elt Ideal .f32) (ix2 r k) := by
  obtain ⟨e0, e1, -, -, -, -⟩ := idx_facts0 t
  unfold iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 256 + 1 * k.val = k.val; rw [e1]; omega

/-- Window 1's block at any point is the whole right array. -/
theorem iblk0_1_apply (c : Dev nD) (t : Fin cfg0.N) (k : Fin 256) (q : Fin 128) :
    (iblk0 V c 1 t : Vec Ideal S256x128 .f32) (ix2 k q) = (V c main_v31 : S256x128.Idx → Elt Ideal .f32) (ix2 k q) := by
  obtain ⟨-, -, e2, e3, -, -⟩ := idx_facts0 t
  unfold iblk0
  rw [View.read_apply]
  show V c main_v31 _ = V c main_v31 _
  congr 1
  funext a
  apply Fin.ext
  match a with
  | ⟨0, _⟩ => show win0_1.index t (0 : Fin 2) * 256 + 1 * k.val = k.val; rw [e2]; omega
  | ⟨1, _⟩ => show win0_1.index t (1 : Fin 2) * 128 + 1 * q.val = q.val; rw [e3]; omega

/-- The product's entry at an index whose coordinates are r and q. -/
theorem G0_apply (x : S100000x256.Idx → Elt Ideal .f32) (w : S256x128.Idx → Elt Ideal .f32) (i : S100000x128.Idx)
    (r : Fin 100000) (q : Fin 128) (h0 : (i 0).val = r.val) (h1 : (i 1).val = q.val) :
    G0 x w i = ∑ k : Fin 256, x (ix2 r k) * w (ix2 k q) := by
  have e0 : (i 0 : Fin 100000) = r := Fin.ext h0
  have e1 : (i 1 : Fin 128) = q := Fin.ext h1
  show ∑ k : Fin 256, x (ix2 (n0 := 100000) (n1 := 256) (i 0) k) * w (ix2 (n0 := 256) (n1 := 128) k (i 1)) = _
  rw [e0, e1]

/-- What point t writes back is block t of the product of the whole arrays: row p of the block is row
    t · 5000 + p of the product, a sum over the same 256 contraction indices. -/
theorem flushed0_eq (c : Dev nD) (t : Fin cfg0.N) :
    (dat0 (F := Ideal) V c).flushed 2 t = ((cfg0.win 2).blk t).view.read (Elt Ideal) (G0 (V c main_arg0) (V c main_v31)) := by
  show (cfg0.win 2).cut (grid0.coords t) ((dat0 (F := Ideal) V c).after 2 t) = _
  rw [after0_2]
  unfold out0_2
  rw [View.canon_unit_zero hz]
  simp only [View.ld_unit_zero (S := S5000x256) hz, View.ld_unit_zero (S := S256x128) hz]
  obtain ⟨-, -, -, -, e4, e5⟩ := idx_facts0 t
  have hN : grid0.N = 20 := N_0
  have ht : t.val < grid0.N := t.isLt
  rw [hN] at ht
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (ix2 p q) = G0 (V c main_arg0) (V c main_v31) (((cfg0.win 2).blk t).view.emb (ix2 p q))
  refine (pay0_apply _ _ p q).trans ?_
  have hp : p.val < 5000 := p.isLt
  refine Eq.trans ?_ (G0_apply _ _ _ ⟨t.val * 5000 + p.val, by omega⟩ q ?_ ?_).symm
  · refine Finset.sum_congr rfl fun k _ => ?_
    rw [iblk0_0_apply V c t p k ⟨t.val * 5000 + p.val, by omega⟩ rfl, iblk0_1_apply V c t k q]
  · show win0_2.index t (0 : Fin 2) * 5000 + 1 * p.val = t.val * 5000 + p.val
    rw [e4]; omega
  · show win0_2.index t (1 : Fin 2) * 128 + 1 * q.val = q.val
    rw [e5]; omega

/-- An index of the array is in point t's block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v33).slice (win0_2.rect t)).set ↔ _
  rw [View.set_slice_whole, Rect.mem_set_unit]
  exact Iff.rfl

/-- Every index of the array is covered: row r lies in the block of point r / 5000. -/
theorem cover0 (i : S100000x128.Idx) :
    ∃ t : Fin cfg0.N, (cfg0.win 2).flush t = true ∧ i ∈ ((cfg0.win 2).blk t).view.set := by
  have hN : grid0.N = 20 := N_0
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by show _ < grid0.N; rw [hN]; omega⟩, rfl⟩
  obtain ⟨-, -, -, -, e4, e5⟩ := idx_facts0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 128 ≤ (i 1).val ∧ (i 1).val < win0_2.index t (1 : Fin 2) * 128 + 128; rw [e5]; omega

/-- The output array after region 0 is the product of the whole arrays, entry by entry. -/
theorem arr0_G (c : Dev nD) : (dat0 (F := Ideal) V c).arrAt 2 cfg0.N = G0 (V c main_arg0) (V c main_v31) :=
  (dat0 (F := Ideal) V c).arrAt_eq_of_cover 2 _ (fun t _ => flushed0_eq V c t) cover0

/-- The entrywise product is the host's dot_general with the reference's dimension numbers. -/
theorem G0_eq (x : S100000x256.Idx → Elt Ideal .f32) (w : S256x128.Idx → Elt Ideal .f32) :
    G0 x w = Host.dotGeneral (F := Ideal) (φ₁ := .f32) (φ₂ := .f32) Cert.ReferenceIdeal.dot_S100000x256_S256x128_S100000x128_1_0_0_1_n_n none x w := by
  funext i
  obtain ⟨p, q, rfl⟩ : ∃ (p : Fin 100000) (q : Fin 128), i = ix2 p q := ⟨i 0, i 1, eq_ix2 i⟩
  exact (Cert.PlainDot.dotGeneral_apply Cert.ReferenceIdeal.dot_S100000x256_S256x128_S100000x128_1_0_0_1_n_n rfl rfl rfl rfl rfl rfl none .single x w p q).symm

/-- REGION 0: the output array after the region is the host's dot_general of the two arrays the region reads. -/
theorem arr0 (c : Dev nD) : (Gen.dat0 (F := Ideal) V c).arrAt 2 cfg0.N
    = Host.dotGeneral (F := Ideal) (φ₁ := .f32) (φ₂ := .f32) Cert.ReferenceIdeal.dot_S100000x256_S256x128_S100000x128_1_0_0_1_n_n none (V c main_arg0) (V c main_v31) :=
  (arr0_G V c).trans (G0_eq _ _)

/-! # Region 2: the row-tiled product h · W2ᵀ, the same argument at the second layer's extents -/

/-- The product of the whole arrays, entry by entry. -/
abbrev G2 (x : S100000x128.Idx → Elt Ideal .f32) (w : S128x64.Idx → Elt Ideal .f32) : S100000x64.Idx → Elt Ideal .f32 :=
  fun i => ∑ k : Fin 128, x (ix2 (n0 := 100000) (n1 := 128) (i 0) k) * w (ix2 (n0 := 128) (n1 := 64) k (i 1))

/-- The body's payload at (p, q): over the extended reals the narrowing to bf16 is the identity and the product into a
    zero accumulator is the exact sum over the 128 contraction indices. -/
theorem pay2_apply (x0 : Vec Ideal S5000x128 .f32) (x1 : Vec Ideal S128x64 .f32) (p : Fin 5000) (q : Fin 64) :
    k2_pay1 (F := Ideal) x0 x1 (ix2 p q) = ∑ k : Fin 128, x0 (ix2 p k) * x1 (ix2 k q) := by
  unfold k2_pay1
  rw [shapeCast_self, shapeCast_self]
  exact Cert.PlainDot.matmul_zero_apply dot_S5000x128_S128x64_S5000x64_1_0_0_1_n_n rfl rfl rfl rfl rfl rfl none _ _ p q

/-- The index maps, decided over the 20 grid points: the left operand's and the output's row block is the point, the
    right operand's block is always the whole array. -/
theorem idx_facts2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- Window 0's block at point t, read at (p, k), is the left array at row t · 5000 + p. -/
theorem iblk2_0_apply (c : Dev nD) (t : Fin cfg2.N) (p : Fin 5000) (k : Fin 128) (r : Fin 100000)
    (hr : r.val = t.val * 5000 + p.val) :
    (iblk2 V c 0 t : Vec Ideal S5000x128 .f32) (ix2 p k) = (V c main_v48 : S100000x128.Idx → Elt Ideal .f32) (ix2 r k) := by
  obtain ⟨e0, e1, -, -, -, -⟩ := idx_facts2 t
  unfold iblk2
  rw [View.read_apply]
  show V c main_v48 _ = V c main_v48 _
  congr 1
  funext a
  apply Fin.ext
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

/-- Window 1's block at any point is the whole right array. -/
theorem iblk2_1_apply (c : Dev nD) (t : Fin cfg2.N) (k : Fin 128) (q : Fin 64) :
    (iblk2 V c 1 t : Vec Ideal S128x64 .f32) (ix2 k q) = (V c main_v32 : S128x64.Idx → Elt Ideal .f32) (ix2 k q) := by
  obtain ⟨-, -, e2, e3, -, -⟩ := idx_facts2 t
  unfold iblk2
  rw [View.read_apply]
  show V c main_v32 _ = V c main_v32 _
  congr 1
  funext a
  apply Fin.ext
  match a with
  | ⟨0, _⟩ => show win2_1.index t (0 : Fin 2) * 128 + 1 * k.val = k.val; rw [e2]; omega
  | ⟨1, _⟩ => show win2_1.index t (1 : Fin 2) * 64 + 1 * q.val = q.val; rw [e3]; omega

/-- The product's entry at an index whose coordinates are r and q. -/
theorem G2_apply (x : S100000x128.Idx → Elt Ideal .f32) (w : S128x64.Idx → Elt Ideal .f32) (i : S100000x64.Idx)
    (r : Fin 100000) (q : Fin 64) (h0 : (i 0).val = r.val) (h1 : (i 1).val = q.val) :
    G2 x w i = ∑ k : Fin 128, x (ix2 r k) * w (ix2 k q) := by
  have e0 : (i 0 : Fin 100000) = r := Fin.ext h0
  have e1 : (i 1 : Fin 64) = q := Fin.ext h1
  show ∑ k : Fin 128, x (ix2 (n0 := 100000) (n1 := 128) (i 0) k) * w (ix2 (n0 := 128) (n1 := 64) k (i 1)) = _
  rw [e0, e1]

/-- What point t writes back is block t of the product of the whole arrays: row p of the block is row
    t · 5000 + p of the product, a sum over the same 128 contraction indices. -/
theorem flushed2_eq (c : Dev nD) (t : Fin cfg2.N) :
    (dat2 (F := Ideal) V c).flushed 2 t = ((cfg2.win 2).blk t).view.read (Elt Ideal) (G2 (V c main_v48) (V c main_v32)) := by
  show (cfg2.win 2).cut (grid2.coords t) ((dat2 (F := Ideal) V c).after 2 t) = _
  rw [after2_2]
  unfold out2_2
  rw [View.canon_unit_zero hz]
  simp only [View.ld_unit_zero (S := S5000x128) hz, View.ld_unit_zero (S := S128x64) hz]
  obtain ⟨-, -, -, -, e4, e5⟩ := idx_facts2 t
  have hN : grid2.N = 20 := N_2
  have ht : t.val < grid2.N := t.isLt
  rw [hN] at ht
  funext j
  obtain ⟨p, q, rfl⟩ : ∃ (p : Fin 5000) (q : Fin 64), j = ix2 p q := ⟨j 0, j 1, eq_ix2 j⟩
  show k2_pay1 (F := Ideal) (iblk2 V c 0 t) (iblk2 V c 1 t) (ix2 p q) = G2 (V c main_v48) (V c main_v32) (((cfg2.win 2).blk t).view.emb (ix2 p q))
  refine (pay2_apply _ _ p q).trans ?_
  have hp : p.val < 5000 := p.isLt
  refine Eq.trans ?_ (G2_apply _ _ _ ⟨t.val * 5000 + p.val, by omega⟩ q ?_ ?_).symm
  · refine Finset.sum_congr rfl fun k _ => ?_
    rw [iblk2_0_apply V c t p k ⟨t.val * 5000 + p.val, by omega⟩ rfl, iblk2_1_apply V c t k q]
  · show win2_2.index t (0 : Fin 2) * 5000 + 1 * p.val = t.val * 5000 + p.val
    rw [e4]; omega
  · show win2_2.index t (1 : Fin 2) * 64 + 1 * q.val = q.val
    rw [e5]; omega

/-- An index of the array is in point t's block iff each coordinate is in the block's range on its axis. -/
theorem mem_blk2 (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v49).slice (win2_2.rect t)).set ↔ _
  rw [View.set_slice_whole, Rect.mem_set_unit]
  exact Iff.rfl

/-- Every index of the array is covered: row r lies in the block of point r / 5000. -/
theorem cover2 (i : S100000x64.Idx) :
    ∃ t : Fin cfg2.N, (cfg2.win 2).flush t = true ∧ i ∈ ((cfg2.win 2).blk t).view.set := by
  have hN : grid2.N = 20 := N_2
  have hi0 : (i 0).val < 100000 := (i 0).isLt
  have hi1 : (i 1).val < 64 := (i 1).isLt
  obtain ⟨t, ht⟩ : ∃ t : Fin cfg2.N, t.val = (i 0).val / 5000 :=
    ⟨⟨(i 0).val / 5000, by show _ < grid2.N; rw [hN]; omega⟩, rfl⟩
  obtain ⟨-, -, -, -, e4, e5⟩ := idx_facts2 t
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; rw [e4, ht]; omega
  | ⟨1, _⟩ => show win2_2.index t (1 : Fin 2) * 64 ≤ (i 1).val ∧ (i 1).val < win2_2.index t (1 : Fin 2) * 64 + 64; rw [e5]; omega

/-- The output array after region 2 is the product of the whole arrays, entry by entry. -/
theorem arr2_G (c : Dev nD) : (dat2 (F := Ideal) V c).arrAt 2 cfg2.N = G2 (V c main_v48) (V c main_v32) :=
  (dat2 (F := Ideal) V c).arrAt_eq_of_cover 2 _ (fun t _ => flushed2_eq V c t) cover2

/-- The entrywise product is the host's dot_general with the reference's dimension numbers. -/
theorem G2_eq (x : S100000x128.Idx → Elt Ideal .f32) (w : S128x64.Idx → Elt Ideal .f32) :
    G2 x w = Host.dotGeneral (F := Ideal) (φ₁ := .f32) (φ₂ := .f32) Cert.ReferenceIdeal.dot_S100000x128_S128x64_S100000x64_1_0_0_1_n_n none x w := by
  funext i
  obtain ⟨p, q, rfl⟩ : ∃ (p : Fin 100000) (q : Fin 64), i = ix2 p q := ⟨i 0, i 1, eq_ix2 i⟩
  exact (Cert.PlainDot.dotGeneral_apply Cert.ReferenceIdeal.dot_S100000x128_S128x64_S100000x64_1_0_0_1_n_n rfl rfl rfl rfl rfl rfl none .single x w p q).symm

/-- REGION 2: the output array after the region is the host's dot_general of the two arrays the region reads. -/
theorem arr2 (c : Dev nD) : (Gen.dat2 (F := Ideal) V c).arrAt 2 cfg2.N
    = Host.dotGeneral (F := Ideal) (φ₁ := .f32) (φ₂ := .f32) Cert.ReferenceIdeal.dot_S100000x128_S128x64_S100000x64_1_0_0_1_n_n none (V c main_v48) (V c main_v32) :=
  (arr2_G V c).trans (G2_eq _ _)

end Cert.KernelIdeal.MatmulRegion

end
-- ==== Proof.LibColumns.lean ====
/-
  Columns: three layout operations read at an index, for any extents.

  A reduction over the columns that keeps its axis (`sum(axis = -1, keepdims = True)`) produces a vector that is then
  viewed as a column `[a, 1]`, and a column is broadcast back along the rows to `[a, b]`; and a column is set beside a
  block of `n` columns to make `n + 1` columns. Each is read here at an index `(row, column)` built from its two
  coordinates, so that the coordinates have literal types at a use site.
-/
import Idealize.ShloMosaic.Lib.ValueIdx
import Idealize.ShloMosaic.Lib.Pipeline.Value

namespace Cert.LibColumns

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- `n` columns and one more column set side by side (`N = n + 1` columns): at `(r, q)` the block of `n` columns at
    `(r, q)` when `q < n`, the single column at row `r` when `q = n`. -/
theorem concat_col_apply {R n N : ℕ} (hN : N = n + 1) (A : (⟨2, ![R, n]⟩ : Shape).Idx → α) (B : (⟨2, ![R, 1]⟩ : Shape).Idx → α)
    (h : Shape.Concatenates [⟨2, ![R, n]⟩, ⟨2, ![R, 1]⟩] ⟨2, ![R, N]⟩ 1) (r : Fin R) (q : Fin N) :
    concatenate ⟨2, ![R, N]⟩ 1 [⟨⟨2, ![R, n]⟩, A⟩, ⟨⟨2, ![R, 1]⟩, B⟩] h (ix2 r q)
      = if hq : q.val < n then A (ix2 r ⟨q.val, hq⟩) else B (ix2 r (0 : Fin 1)) := by
  split
  · next hq =>
    exact concatenate_pair_apply_left 1 A B h (ix2 r q) rfl (ix2 r ⟨q.val, hq⟩)
      (fun b => match b with | ⟨0, _⟩ => rfl | ⟨1, _⟩ => rfl)
  · next hq =>
    refine concatenate_pair_apply_right 1 A B h (ix2 r q) rfl rfl (ix2 r (0 : Fin 1))
      (fun b hb => match b, hb with | ⟨0, _⟩, _ => rfl | ⟨1, _⟩, hb => absurd rfl hb) ?_
    show 0 + n = q.val
    have := q.isLt; omega

end Cert.LibColumns
-- ==== Proof.CombineRegion.lean ====
/-
  The two per-node combines of the graph convolution, blocks to arrays. Each combine runs over 20 row tiles of 5000
  nodes; at tile `t` it reads rows `5000 t … 5000 t + 4999` of the aggregate, of the degree column and of the
  transformed features, and the whole bias row, and writes the same rows of its result. So the result array is ONE
  pointwise expression of the arrays the region finds: `(agg + (d · d) · xw) + b` (under `max · 0` in the first
  combine), the degree factor `d` read at the node's row and the bias `b` at the feature's lane — which is the
  reference's whole-array expression, its broadcasts read at an index.
-/
import proofs.«168217_j52544629899901_1_alg».proof.Proof.Gen.KernelIdeal.Frame
import proofs.«168217_j52544629899901_1_alg».proof.ReferenceIdeal
import proofs.«168217_j52544629899901_1_alg».proof.Proof.LibColumns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.CombineRegion

open Cert.KernelIdeal Cert.KernelIdeal.Gen Idealize.ShloMosaic Idealize.ShloMosaic.TcCoe Idealize.SL.Sem
open Idealize.ShloMosaic.ValueIdx Cert.LibColumns
open Idealize.ShloMosaic.Pipeline (Dat)

variable [Cert.ReferenceIdeal.Facts₀]
variable (V : (c : Dev nD) → (b : Ref sig .tc) → Buf (Elt Ideal) ((c : Thread nD τ).loc b))

theorem hz : (![0, 0] : Fin 2 → Nat) = fun _ => 0 := funext fun a => by fin_cases a <;> rfl

/-! ## The reference's broadcasts read at an index -/

section Layout
variable {α : Type}

/-- A vector `[a]` broadcast to the column `[a, 1]` and then along the rows to `[a, b]` reads, at `(r, q)`, the vector at `r`. -/
theorem bcast_col_apply {a b : ℕ} (ha : a ≠ 1) (x : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (r : Fin a) (q : Fin b) :
    broadcastInDim ⟨2, ![a, b]⟩ ![0, 1] h2 (broadcastInDim ⟨2, ![a, 1]⟩ ![0] h1 x) (ix2 r q) = x (ix1 r) :=
  (broadcastInDim_apply _ h2 _ (ix2 r q) (ix2 r (0 : Fin 1)) (fun ax => match ax with
    | ⟨0, _⟩ => by show r.val = if a = 1 then 0 else r.val; rw [if_neg ha]
    | ⟨1, _⟩ => by show 0 = if (1 : ℕ) = 1 then 0 else q.val; rw [if_pos rfl])).trans
  (broadcastInDim_apply _ h1 x (ix2 r (0 : Fin 1)) (ix1 r) (fun ax => match ax with
    | ⟨0, _⟩ => by show r.val = if a = 1 then 0 else r.val; rw [if_neg ha]))

/-- A vector `[b]` broadcast to the row `[1, b]` and then down the rows to `[a, b]` reads, at `(r, q)`, the vector at `q`. -/
theorem bcast_row_apply {a b : ℕ} (hb : b ≠ 1) (x : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (r : Fin a) (q : Fin b) :
    broadcastInDim ⟨2, ![a, b]⟩ ![0, 1] h2 (broadcastInDim ⟨2, ![1, b]⟩ ![1] h1 x) (ix2 r q) = x (ix1 q) :=
  (broadcastInDim_apply _ h2 _ (ix2 r q) (ix2 (0 : Fin 1) q) (fun ax => match ax with
    | ⟨0, _⟩ => by show 0 = if (1 : ℕ) = 1 then 0 else r.val; rw [if_pos rfl]
    | ⟨1, _⟩ => by show q.val = if b = 1 then 0 else q.val; rw [if_neg hb])).trans
  (broadcastInDim_apply _ h1 x (ix2 (0 : Fin 1) q) (ix1 q) (fun ax => match ax with
    | ⟨0, _⟩ => by show q.val = if b = 1 then 0 else q.val; rw [if_neg hb]))

/-- A scalar broadcast to any shape reads the scalar everywhere. -/
theorem bcast_scalar_apply {t : Shape} (x : (⟨0, ![]⟩ : Shape).Idx → α) (h : (⟨0, ![]⟩ : Shape).BroadcastsInDim t ![]) (i : t.Idx) :
    broadcastInDim t ![] h x i = x ix0 :=
  broadcastInDim_apply _ h x i ix0 (fun ax => ax.elim0)

end Layout

/-! ## Region 1: `max ((agg + (d · d) · xw) + b) 0` -/

/-- The first combine at one node and feature: `max ((agg + (d · d) · xw) + b) 0`, the degree factor read off the
    column at the node's row and the bias off the row at the feature's lane. -/
def G1 (agg : S100000x128.Idx → Ideal .f32) (col : S100000x1.Idx → Ideal .f32) (xw : S100000x128.Idx → Ideal .f32)
    (row : S1x128.Idx → Ideal .f32) : S100000x128.Idx → Ideal .f32 := fun i =>
  FloatOps.maximumf (FloatOps.addf (FloatOps.addf (agg i) (FloatOps.mulf (FloatOps.mulf (col (ix2 (i 0) (0 : Fin 1))) (col (ix2 (i 0) (0 : Fin 1)))) (xw i)))
    (row (ix2 (0 : Fin 1) (i 1)))) (Scalar.ofBits .f32 0x00000000#32)

/-- `G1` at node `r`, feature `q`. -/
theorem G1_apply (agg : S100000x128.Idx → Ideal .f32) (col : S100000x1.Idx → Ideal .f32) (xw : S100000x128.Idx → Ideal .f32)
    (row : S1x128.Idx → Ideal .f32) (r : Fin 100000) (q : Fin 128) :
    G1 agg col xw row (ix2 r q)
      = FloatOps.maximumf (FloatOps.addf (FloatOps.addf (agg (ix2 r q)) (FloatOps.mulf (FloatOps.mulf (col (ix2 r (0 : Fin 1))) (col (ix2 r (0 : Fin 1)))) (xw (ix2 r q))))
          (row (ix2 (0 : Fin 1) q))) (Scalar.ofBits .f32 0x00000000#32) := rfl

/-- The body's payload of region 1 at row `p`, feature `q` of its blocks: the same expression of the blocks' entries. -/
theorem pay1_apply (x0 : Vec Ideal S5000x1 .f32) (x3 : Vec Ideal S5000x128 .f32) (x5 : Vec Ideal S5000x128 .f32) (x10 : Vec Ideal S1x128 .f32)
    (p : Fin 5000) (q : Fin 128) :
    k1_pay1 x0 x3 x5 x10 (ix2 p q)
      = FloatOps.maximumf (FloatOps.addf (FloatOps.addf (x3 (ix2 p q)) (FloatOps.mulf (FloatOps.mulf (x0 (ix2 p (0 : Fin 1))) (x0 (ix2 p (0 : Fin 1)))) (x5 (ix2 p q))))
          (x10 (ix2 (0 : Fin 1) q))) (Scalar.ofBits .f32 0x00000000#32) := by
  unfold k1_pay1
  simp only [shapeCast_self]
  show FloatOps.maximumf (FloatOps.addf (FloatOps.addf (x3 (ix2 p q))
      (FloatOps.mulf (broadcastTo S5000x128 (mulf x0 x0 : S5000x1.Idx → Ideal .f32) broadcasts_S5000x1_S5000x128 (ix2 p q)) (x5 (ix2 p q))))
      (broadcastTo S5000x128 (x10 : S1x128.Idx → Ideal .f32) broadcasts_S1x128_S5000x128 (ix2 p q))) (Scalar.ofBits .f32 0x00000000#32) = _
  rw [broadcastTo_a1_ab_apply, broadcastTo_1b_ab_apply]
  rfl

/-- The printed index maps of region 1, decided over the grid: the row-tiled windows are at block `(t, 0)`, the bias
    row at block `(0, 0)`. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- WHAT POINT `t` WRITES BACK is block `t` of `G1` of the arrays as the region finds them: row `p` of a block of
    point `t` is row `5000 t + p` of its array, the bias row's one block is the whole row. -/
theorem flushed1_eq (c : Dev nD) (t : Fin cfg1.N) :
    (dat1 (F := Ideal) V c).flushed 4 t
      = ((cfg1.win 4).blk t).view.read (Elt Ideal) (G1 (V c main_v46) (V c main_v30) (V c main_v33) (V c main_v47)) := by
  show (cfg1.win 4).cut (grid1.coords t) ((dat1 (F := Ideal) V c).after 4 t) = _
  rw [after1_4]
  unfold out1_4
  rw [View.canon_unit_zero hz]
  simp only [View.ld_unit_zero (S := S5000x128) hz, View.ld_unit_zero (S := S5000x1) hz, View.ld_unit_zero (S := S1x128) hz]
  obtain ⟨e00, e01, e10, e11, e20, e21, e30, e31, e40, e41⟩ := idx_facts1 t
  have ht : t.val < 20 := lt_of_lt_of_eq t.isLt N_1
  funext j
  obtain ⟨p, q, rfl⟩ : ∃ (p : Fin 5000) (q : Fin 128), j = ix2 p q := ⟨j 0, j 1, eq_ix2 j⟩
  have hp : p.val < 5000 := p.isLt
  have hr : t.val * 5000 + p.val < 100000 := by omega
  have h4 : ((cfg1.win 4).blk t).view.emb (ix2 p q) = (ix2 (⟨t.val * 5000 + p.val, hr⟩ : Fin 100000) q : S100000x128.Idx) := by
    funext a; apply Fin.ext
    match a with
    | ⟨0, _⟩ => show win1_4.index t (0 : Fin 2) * 5000 + 1 * p.val = t.val * 5000 + p.val; omega
    | ⟨1, _⟩ => show win1_4.index t (1 : Fin 2) * 128 + 1 * q.val = q.val; omega
  have h0 : ((cfg1.win 0).blk t).view.emb (ix2 p q) = (ix2 (⟨t.val * 5000 + p.val, hr⟩ : Fin 100000) q : S100000x128.Idx) := by
    funext a; apply Fin.ext
    match a with
    | ⟨0, _⟩ => show win1_0.index t (0 : Fin 2) * 5000 + 1 * p.val = t.val * 5000 + p.val; omega
    | ⟨1, _⟩ => show win1_0.index t (1 : Fin 2) * 128 + 1 * q.val = q.val; omega
  have h2 : ((cfg1.win 2).blk t).view.emb (ix2 p q) = (ix2 (⟨t.val * 5000 + p.val, hr⟩ : Fin 100000) q : S100000x128.Idx) := by
    funext a; apply Fin.ext
    match a with
    | ⟨0, _⟩ => show win1_2.index t (0 : Fin 2) * 5000 + 1 * p.val = t.val * 5000 + p.val; omega
    | ⟨1, _⟩ => show win1_2.index t (1 : Fin 2) * 128 + 1 * q.val = q.val; omega
  have h1 : ((cfg1.win 1).blk t).view.emb (ix2 p (0 : Fin 1)) = (ix2 (⟨t.val * 5000 + p.val, hr⟩ : Fin 100000) (0 : Fin 1) : S100000x1.Idx) := by
    funext a; apply Fin.ext
    match a with
    | ⟨0, _⟩ => show win1_1.index t (0 : Fin 2) * 5000 + 1 * p.val = t.val * 5000 + p.val; omega
    | ⟨1, _⟩ => show win1_1.index t (1 : Fin 2) * 1 + 1 * 0 = 0; omega
  have h3 : ((cfg1.win 3).blk t).view.emb (ix2 (0 : Fin 1) q) = (ix2 (0 : Fin 1) q : S1x128.Idx) := by
    funext a; apply Fin.ext
    match a with
    | ⟨0, _⟩ => show win1_3.index t (0 : Fin 2) * 1 + 1 * 0 = 0; omega
    | ⟨1, _⟩ => show win1_3.index t (1 : Fin 2) * 128 + 1 * q.val = q.val; omega
  show k1_pay1 (iblk1 V c 1 t) (iblk1 V c 0 t) (iblk1 V c 2 t) (iblk1 V c 3 t) (ix2 p q)
     = G1 (V c main_v46) (V c main_v30) (V c main_v33) (V c main_v47) (((cfg1.win 4).blk t).view.emb (ix2 p q))
  rw [h4, G1_apply]
  refine (pay1_apply _ _ _ _ p q).trans ?_
  have r0 : iblk1 V c 0 t (ix2 p q) = V c main_v46 (ix2 (⟨t.val * 5000 + p.val, hr⟩ : Fin 100000) q) := by
    show V c main_v46 (((cfg1.win 0).blk t).view.emb (ix2 p q)) = _
    rw [h0]
  have r2 : iblk1 V c 2 t (ix2 p q) = V c main_v33 (ix2 (⟨t.val * 5000 + p.val, hr⟩ : Fin 100000) q) := by
    show V c main_v33 (((cfg1.win 2).blk t).view.emb (ix2 p q)) = _
    rw [h2]
  have r1 : iblk1 V c 1 t (ix2 p (0 : Fin 1)) = V c main_v30 (ix2 (⟨t.val * 5000 + p.val, hr⟩ : Fin 100000) (0 : Fin 1)) := by
    show V c main_v30 (((cfg1.win 1).blk t).view.emb (ix2 p (0 : Fin 1))) = _
    rw [h1]
  have r3 : iblk1 V c 3 t (ix2 (0 : Fin 1) q) = V c main_v47 (ix2 (0 : Fin 1) q) := by
    show V c main_v47 (((cfg1.win 3).blk t).view.emb (ix2 (0 : Fin 1) q)) = _
    rw [h3]
  rw [r0, r1, r2, r3]

/-- An index of the array is in point `t`'s block iff each coordinate is in the block's range on its axis. -/
theorem mem_blk1 (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v48).slice (win1_4.rect t)).set ↔ _
  rw [View.set_slice_whole, Rect.mem_set_unit]
  exact Iff.rfl

/-- Every node's row is in some point's block: row `r` is in the block of point `r / 5000`. -/
theorem cover1 (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  have hN : grid1.N = 20 := N_1
  have hlt : (i 0).val / 5000 < cfg1.N := by show (i 0).val / 5000 < grid1.N; rw [hN]; omega
  obtain ⟨-, -, -, -, -, -, -, -, e40, e41⟩ := idx_facts1 ⟨(i 0).val / 5000, hlt⟩
  have e40' : win1_4.index ⟨(i 0).val / 5000, hlt⟩ (0 : Fin 2) = (i 0).val / 5000 := e40
  refine ⟨⟨(i 0).val / 5000, hlt⟩, flush1_4 _, ?_⟩
  rw [mem_blk1]
  intro a
  match a with
  | ⟨0, _⟩ => show win1_4.index ⟨(i 0).val / 5000, hlt⟩ (0 : Fin 2) * 5000 ≤ (i 0).val ∧ (i 0).val < win1_4.index ⟨(i 0).val / 5000, hlt⟩ (0 : Fin 2) * 5000 + 5000; omega
  | ⟨1, _⟩ => show win1_4.index ⟨(i 0).val / 5000, hlt⟩ (1 : Fin 2) * 128 ≤ (i 1).val ∧ (i 1).val < win1_4.index ⟨(i 0).val / 5000, hlt⟩ (1 : Fin 2) * 128 + 128; omega

/-- THE ARRAY after region 1 is `G1` of the arrays as the region finds them. -/
theorem arr1_G (c : Dev nD) :
    (dat1 (F := Ideal) V c).arrAt 4 cfg1.N = G1 (V c main_v46) (V c main_v30) (V c main_v33) (V c main_v47) :=
  (dat1 (F := Ideal) V c).arrAt_eq_of_cover 4 (G1 (V c main_v46) (V c main_v30) (V c main_v33) (V c main_v47))
    (fun t _ => flushed1_eq V c t) cover1

/-- `G1` over a degree vector cast to a column and a bias cast to a row is the reference's whole-array expression. -/
theorem G1_eq_host (agg xw : FVec Ideal S100000x128 .f32) (dinv : FVec Ideal S100000 .f32) (bias : FVec Ideal S128 .f32) :
    G1 agg (shapeCast S100000x1 dinv shapeCasts_S100000_S100000x1) xw (shapeCast S1x128 bias shapeCasts_S128_S1x128)
      = maximumf (addf (addf agg (mulf (broadcastInDim S100000x128 ![0, 1] Cert.ReferenceIdeal.Facts₀.bcast_S100000x1_S100000x128_0_1 (broadcastInDim S100000x1 ![0] Cert.ReferenceIdeal.Facts₀.bcast_S100000_S100000x1_0 (mulf dinv dinv))) xw))
                               (broadcastInDim S100000x128 ![0, 1] Cert.ReferenceIdeal.Facts₀.bcast_S1x128_S100000x128_0_1 (broadcastInDim S1x128 ![1] Cert.ReferenceIdeal.Facts₀.bcast_S128_S1x128_1 bias)))
                   (broadcastInDim S100000x128 ![] Cert.ReferenceIdeal.Facts₀.bcast_S_S100000x128 (constant (F := Ideal) S_ .f32 0x00000000#32)) := by
  funext i
  obtain ⟨r, q, rfl⟩ : ∃ (r : Fin 100000) (q : Fin 128), i = ix2 r q := ⟨i 0, i 1, eq_ix2 i⟩
  rw [G1_apply, shapeCast_a_a1_apply, shapeCast_a_1a_apply]
  show _ = FloatOps.maximumf (FloatOps.addf (FloatOps.addf (agg (ix2 r q))
      (FloatOps.mulf (broadcastInDim S100000x128 ![0, 1] Cert.ReferenceIdeal.Facts₀.bcast_S100000x1_S100000x128_0_1 (broadcastInDim S100000x1 ![0] Cert.ReferenceIdeal.Facts₀.bcast_S100000_S100000x1_0 (mulf dinv dinv)) (ix2 r q)) (xw (ix2 r q))))
      (broadcastInDim S100000x128 ![0, 1] Cert.ReferenceIdeal.Facts₀.bcast_S1x128_S100000x128_0_1 (broadcastInDim S1x128 ![1] Cert.ReferenceIdeal.Facts₀.bcast_S128_S1x128_1 bias) (ix2 r q)))
      (broadcastInDim S100000x128 ![] Cert.ReferenceIdeal.Facts₀.bcast_S_S100000x128 (constant (F := Ideal) S_ .f32 0x00000000#32) (ix2 r q))
  rw [bcast_col_apply (by decide), bcast_row_apply (by decide), bcast_scalar_apply]
  rfl

/-- THE ARRAY after region 1, as the reference spells it: `max ((agg + (d · d) · xw) + b) 0` over whole arrays, the
    degree vector and the bias broadcast by the reference's own operations. -/
theorem arr1 (c : Dev nD) (dinv : FVec Ideal S100000 .f32) (bias : FVec Ideal S128 .f32)
    (hd : V c main_v30 = shapeCast S100000x1 dinv shapeCasts_S100000_S100000x1) (hb : V c main_v47 = shapeCast S1x128 bias shapeCasts_S128_S1x128) :
    (dat1 (F := Ideal) V c).arrAt 4 cfg1.N
      = maximumf (addf (addf (V c main_v46 : FVec Ideal S100000x128 .f32) (mulf (broadcastInDim S100000x128 ![0, 1] Cert.ReferenceIdeal.Facts₀.bcast_S100000x1_S100000x128_0_1 (broadcastInDim S100000x1 ![0] Cert.ReferenceIdeal.Facts₀.bcast_S100000_S100000x1_0 (mulf dinv dinv))) (V c main_v33 : FVec Ideal S100000x128 .f32)))
                               (broadcastInDim S100000x128 ![0, 1] Cert.ReferenceIdeal.Facts₀.bcast_S1x128_S100000x128_0_1 (broadcastInDim S1x128 ![1] Cert.ReferenceIdeal.Facts₀.bcast_S128_S1x128_1 bias)))
                   (broadcastInDim S100000x128 ![] Cert.ReferenceIdeal.Facts₀.bcast_S_S100000x128 (constant (F := Ideal) S_ .f32 0x00000000#32)) := by
  rw [arr1_G V c, hd, hb]
  exact G1_eq_host _ _ dinv bias

/-! ## Region 3: `(agg + (d · d) · xw) + b` -/

/-- The second combine at one node and feature: `(agg + (d · d) · xw) + b`, the degree factor read off the
    column at the node's row and the bias off the row at the feature's lane. -/
def G3 (agg : S100000x64.Idx → Ideal .f32) (col : S100000x1.Idx → Ideal .f32) (xw : S100000x64.Idx → Ideal .f32)
    (row : S1x64.Idx → Ideal .f32) : S100000x64.Idx → Ideal .f32 := fun i =>
  FloatOps.addf (FloatOps.addf (agg i) (FloatOps.mulf (FloatOps.mulf (col (ix2 (i 0) (0 : Fin 1))) (col (ix2 (i 0) (0 : Fin 1)))) (xw i)))
    (row (ix2 (0 : Fin 1) (i 1)))

/-- `G3` at node `r`, feature `q`. -/
theorem G3_apply (agg : S100000x64.Idx → Ideal .f32) (col : S100000x1.Idx → Ideal .f32) (xw : S100000x64.Idx → Ideal .f32)
    (row : S1x64.Idx → Ideal .f32) (r : Fin 100000) (q : Fin 64) :
    G3 agg col xw row (ix2 r q)
      = FloatOps.addf (FloatOps.addf (agg (ix2 r q)) (FloatOps.mulf (FloatOps.mulf (col (ix2 r (0 : Fin 1))) (col (ix2 r (0 : Fin 1)))) (xw (ix2 r q))))
          (row (ix2 (0 : Fin 1) q)) := rfl

/-- The body's payload of region 3 at row `p`, feature `q` of its blocks: the same expression of the blocks' entries. -/
theorem pay3_apply (x0 : Vec Ideal S5000x1 .f32) (x3 : Vec Ideal S5000x64 .f32) (x5 : Vec Ideal S5000x64 .f32) (x10 : Vec Ideal S1x64 .f32)
    (p : Fin 5000) (q : Fin 64) :
    k3_pay1 x0 x3 x5 x10 (ix2 p q)
      = FloatOps.addf (FloatOps.addf (x3 (ix2 p q)) (FloatOps.mulf (FloatOps.mulf (x0 (ix2 p (0 : Fin 1))) (x0 (ix2 p (0 : Fin 1)))) (x5 (ix2 p q))))
          (x10 (ix2 (0 : Fin 1) q)) := by
  unfold k3_pay1
  simp only [shapeCast_self]
  show FloatOps.addf (FloatOps.addf (x3 (ix2 p q))
      (FloatOps.mulf (broadcastTo S5000x64 (mulf x0 x0 : S5000x1.Idx → Ideal .f32) broadcasts_S5000x1_S5000x64 (ix2 p q)) (x5 (ix2 p q))))
      (broadcastTo S5000x64 (x10 : S1x64.Idx → Ideal .f32) broadcasts_S1x64_S5000x64 (ix2 p q)) = _
  rw [broadcastTo_a1_ab_apply, broadcastTo_1b_ab_apply]
  rfl

/-- The printed index maps of region 3, decided over the grid: the row-tiled windows are at block `(t, 0)`, the bias
    row at block `(0, 0)`. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- WHAT POINT `t` WRITES BACK is block `t` of `G3` of the arrays as the region finds them: row `p` of a block of
    point `t` is row `5000 t + p` of its array, the bias row's one block is the whole row. -/
theorem flushed3_eq (c : Dev nD) (t : Fin cfg3.N) :
    (dat3 (F := Ideal) V c).flushed 4 t
      = ((cfg3.win 4).blk t).view.read (Elt Ideal) (G3 (V c main_v62) (V c main_v30) (V c main_v49) (V c main_v63)) := by
  show (cfg3.win 4).cut (grid3.coords t) ((dat3 (F := Ideal) V c).after 4 t) = _
  rw [after3_4]
  unfold out3_4
  rw [View.canon_unit_zero hz]
  simp only [View.ld_unit_zero (S := S5000x64) hz, View.ld_unit_zero (S := S5000x1) hz, View.ld_unit_zero (S := S1x64) hz]
  obtain ⟨e00, e01, e10, e11, e20, e21, e30, e31, e40, e41⟩ := idx_facts3 t
  have ht : t.val < 20 := lt_of_lt_of_eq t.isLt N_3
  funext j
  obtain ⟨p, q, rfl⟩ : ∃ (p : Fin 5000) (q : Fin 64), j = ix2 p q := ⟨j 0, j 1, eq_ix2 j⟩
  have hp : p.val < 5000 := p.isLt
  have hr : t.val * 5000 + p.val < 100000 := by omega
  have h4 : ((cfg3.win 4).blk t).view.emb (ix2 p q) = (ix2 (⟨t.val * 5000 + p.val, hr⟩ : Fin 100000) q : S100000x64.Idx) := by
    funext a; apply Fin.ext
    match a with
    | ⟨0, _⟩ => show win3_4.index t (0 : Fin 2) * 5000 + 1 * p.val = t.val * 5000 + p.val; omega
    | ⟨1, _⟩ => show win3_4.index t (1 : Fin 2) * 64 + 1 * q.val = q.val; omega
  have h0 : ((cfg3.win 0).blk t).view.emb (ix2 p q) = (ix2 (⟨t.val * 5000 + p.val, hr⟩ : Fin 100000) q : S100000x64.Idx) := by
    funext a; apply Fin.ext
    match a with
    | ⟨0, _⟩ => show win3_0.index t (0 : Fin 2) * 5000 + 1 * p.val = t.val * 5000 + p.val; omega
    | ⟨1, _⟩ => show win3_0.index t (1 : Fin 2) * 64 + 1 * q.val = q.val; omega
  have h2 : ((cfg3.win 2).blk t).view.emb (ix2 p q) = (ix2 (⟨t.val * 5000 + p.val, hr⟩ : Fin 100000) q : S100000x64.Idx) := by
    funext a; apply Fin.ext
    match a with
    | ⟨0, _⟩ => show win3_2.index t (0 : Fin 2) * 5000 + 1 * p.val = t.val * 5000 + p.val; omega
    | ⟨1, _⟩ => show win3_2.index t (1 : Fin 2) * 64 + 1 * q.val = q.val; omega
  have h1 : ((cfg3.win 1).blk t).view.emb (ix2 p (0 : Fin 1)) = (ix2 (⟨t.val * 5000 + p.val, hr⟩ : Fin 100000) (0 : Fin 1) : S100000x1.Idx) := by
    funext a; apply Fin.ext
    match a with
    | ⟨0, _⟩ => show win3_1.index t (0 : Fin 2) * 5000 + 1 * p.val = t.val * 5000 + p.val; omega
    | ⟨1, _⟩ => show win3_1.index t (1 : Fin 2) * 1 + 1 * 0 = 0; omega
  have h3 : ((cfg3.win 3).blk t).view.emb (ix2 (0 : Fin 1) q) = (ix2 (0 : Fin 1) q : S1x64.Idx) := by
    funext a; apply Fin.ext
    match a with
    | ⟨0, _⟩ => show win3_3.index t (0 : Fin 2) * 1 + 1 * 0 = 0; omega
    | ⟨1, _⟩ => show win3_3.index t (1 : Fin 2) * 64 + 1 * q.val = q.val; omega
  show k3_pay1 (iblk3 V c 1 t) (iblk3 V c 0 t) (iblk3 V c 2 t) (iblk3 V c 3 t) (ix2 p q)
     = G3 (V c main_v62) (V c main_v30) (V c main_v49) (V c main_v63) (((cfg3.win 4).blk t).view.emb (ix2 p q))
  rw [h4, G3_apply]
  refine (pay3_apply _ _ _ _ p q).trans ?_
  have r0 : iblk3 V c 0 t (ix2 p q) = V c main_v62 (ix2 (⟨t.val * 5000 + p.val, hr⟩ : Fin 100000) q) := by
    show V c main_v62 (((cfg3.win 0).blk t).view.emb (ix2 p q)) = _
    rw [h0]
  have r2 : iblk3 V c 2 t (ix2 p q) = V c main_v49 (ix2 (⟨t.val * 5000 + p.val, hr⟩ : Fin 100000) q) := by
    show V c main_v49 (((cfg3.win 2).blk t).view.emb (ix2 p q)) = _
    rw [h2]
  have r1 : iblk3 V c 1 t (ix2 p (0 : Fin 1)) = V c main_v30 (ix2 (⟨t.val * 5000 + p.val, hr⟩ : Fin 100000) (0 : Fin 1)) := by
    show V c main_v30 (((cfg3.win 1).blk t).view.emb (ix2 p (0 : Fin 1))) = _
    rw [h1]
  have r3 : iblk3 V c 3 t (ix2 (0 : Fin 1) q) = V c main_v63 (ix2 (0 : Fin 1) q) := by
    show V c main_v63 (((cfg3.win 3).blk t).view.emb (ix2 (0 : Fin 1) q)) = _
    rw [h3]
  rw [r0, r1, r2, r3]

/-- An index of the array is in point `t`'s block iff each coordinate is in the block's range on its axis. -/
theorem mem_blk3 (t : Fin cfg3.N) (i : S100000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v64).slice (win3_4.rect t)).set ↔ _
  rw [View.set_slice_whole, Rect.mem_set_unit]
  exact Iff.rfl

/-- Every node's row is in some point's block: row `r` is in the block of point `r / 5000`. -/
theorem cover3 (i : S100000x64.Idx) : ∃ t : Fin cfg3.N, (cfg3.win 4).flush t = true ∧ i ∈ ((cfg3.win 4).blk t).view.set := by
  have hi0 : (i 0).val < 100000 := (i 0).isLt
  have hi1 : (i 1).val < 64 := (i 1).isLt
  have hN : grid3.N = 20 := N_3
  have hlt : (i 0).val / 5000 < cfg3.N := by show (i 0).val / 5000 < grid3.N; rw [hN]; omega
  obtain ⟨-, -, -, -, -, -, -, -, e40, e41⟩ := idx_facts3 ⟨(i 0).val / 5000, hlt⟩
  have e40' : win3_4.index ⟨(i 0).val / 5000, hlt⟩ (0 : Fin 2) = (i 0).val / 5000 := e40
  refine ⟨⟨(i 0).val / 5000, hlt⟩, flush3_4 _, ?_⟩
  rw [mem_blk3]
  intro a
  match a with
  | ⟨0, _⟩ => show win3_4.index ⟨(i 0).val / 5000, hlt⟩ (0 : Fin 2) * 5000 ≤ (i 0).val ∧ (i 0).val < win3_4.index ⟨(i 0).val / 5000, hlt⟩ (0 : Fin 2) * 5000 + 5000; omega
  | ⟨1, _⟩ => show win3_4.index ⟨(i 0).val / 5000, hlt⟩ (1 : Fin 2) * 64 ≤ (i 1).val ∧ (i 1).val < win3_4.index ⟨(i 0).val / 5000, hlt⟩ (1 : Fin 2) * 64 + 64; omega

/-- THE ARRAY after region 3 is `G3` of the arrays as the region finds them. -/
theorem arr3_G (c : Dev nD) :
    (dat3 (F := Ideal) V c).arrAt 4 cfg3.N = G3 (V c main_v62) (V c main_v30) (V c main_v49) (V c main_v63) :=
  (dat3 (F := Ideal) V c).arrAt_eq_of_cover 4 (G3 (V c main_v62) (V c main_v30) (V c main_v49) (V c main_v63))
    (fun t _ => flushed3_eq V c t) cover3

/-- `G3` over a degree vector cast to a column and a bias cast to a row is the reference's whole-array expression. -/
theorem G3_eq_host (agg xw : FVec Ideal S100000x64 .f32) (dinv : FVec Ideal S100000 .f32) (bias : FVec Ideal S64 .f32) :
    G3 agg (shapeCast S100000x1 dinv shapeCasts_S100000_S100000x1) xw (shapeCast S1x64 bias shapeCasts_S64_S1x64)
      = addf (addf agg (mulf (broadcastInDim S100000x64 ![0, 1] Cert.ReferenceIdeal.Facts₀.bcast_S100000x1_S100000x64_0_1 (broadcastInDim S100000x1 ![0] Cert.ReferenceIdeal.Facts₀.bcast_S100000_S100000x1_0 (mulf dinv dinv))) xw))
               (broadcastInDim S100000x64 ![0, 1] Cert.ReferenceIdeal.Facts₀.bcast_S1x64_S100000x64_0_1 (broadcastInDim S1x64 ![1] Cert.ReferenceIdeal.Facts₀.bcast_S64_S1x64_1 bias)) := by
  funext i
  obtain ⟨r, q, rfl⟩ : ∃ (r : Fin 100000) (q : Fin 64), i = ix2 r q := ⟨i 0, i 1, eq_ix2 i⟩
  rw [G3_apply, shapeCast_a_a1_apply, shapeCast_a_1a_apply]
  show _ = FloatOps.addf (FloatOps.addf (agg (ix2 r q))
      (FloatOps.mulf (broadcastInDim S100000x64 ![0, 1] Cert.ReferenceIdeal.Facts₀.bcast_S100000x1_S100000x64_0_1 (broadcastInDim S100000x1 ![0] Cert.ReferenceIdeal.Facts₀.bcast_S100000_S100000x1_0 (mulf dinv dinv)) (ix2 r q)) (xw (ix2 r q))))
      (broadcastInDim S100000x64 ![0, 1] Cert.ReferenceIdeal.Facts₀.bcast_S1x64_S100000x64_0_1 (broadcastInDim S1x64 ![1] Cert.ReferenceIdeal.Facts₀.bcast_S64_S1x64_1 bias) (ix2 r q))
  rw [bcast_col_apply (by decide), bcast_row_apply (by decide)]
  rfl

/-- THE ARRAY after region 3, as the reference spells it: `(agg + (d · d) · xw) + b` over whole arrays, the degree
    vector and the bias broadcast by the reference's own operations. -/
theorem arr3 (c : Dev nD) (dinv : FVec Ideal S100000 .f32) (bias : FVec Ideal S64 .f32)
    (hd : V c main_v30 = shapeCast S100000x1 dinv shapeCasts_S100000_S100000x1) (hb : V c main_v63 = shapeCast S1x64 bias shapeCasts_S64_S1x64) :
    (dat3 (F := Ideal) V c).arrAt 4 cfg3.N
      = addf (addf (V c main_v62 : FVec Ideal S100000x64 .f32) (mulf (broadcastInDim S100000x64 ![0, 1] Cert.ReferenceIdeal.Facts₀.bcast_S100000x1_S100000x64_0_1 (broadcastInDim S100000x1 ![0] Cert.ReferenceIdeal.Facts₀.bcast_S100000_S100000x1_0 (mulf dinv dinv))) (V c main_v49 : FVec Ideal S100000x64 .f32)))
               (broadcastInDim S100000x64 ![0, 1] Cert.ReferenceIdeal.Facts₀.bcast_S1x64_S100000x64_0_1 (broadcastInDim S1x64 ![1] Cert.ReferenceIdeal.Facts₀.bcast_S64_S1x64_1 bias)) := by
  rw [arr3_G V c, hd, hb]
  exact G3_eq_host _ _ dinv bias

end Cert.KernelIdeal.CombineRegion
end
-- ==== Proof.KernelFold.lean ====
/-
  The kernel program's result, walked back through its segments to the arguments.

  The program is nine segments: three stretches of host operations, the first product, a stretch, the first combine,
  the second product, a stretch, the second combine. The buffers' contents at each boundary are a fold from the launch
  memory: a stretch applies its operations, a region leaves its output array at what its blocks wrote back and every
  other buffer as it found it. Reading that fold one boundary at a time, each buffer a later segment uses holds the
  reference's stage of the same name applied to the launch contents of the arguments: the rows and columns of the
  edge list, the inverse-square-root degrees, the per-edge normalisation, the transposed weights; then the first
  product (the host's dot_general of x and the transposed first weights, block by block), the first aggregate, the
  first layer relu (agg + dinv² · xw + b), the second product, the second aggregate, and the second combine, which is
  the result. The reference recomputes the degrees and the normalisation for its second layer; they are the first
  layer's (RefTwice), which is where the two spellings meet.
-/
import proofs.«168217_j52544629899901_1_alg».proof.Proof.Gen.KernelIdeal.Frame
import proofs.«168217_j52544629899901_1_alg».proof.Proof.Gen.ReferenceIdeal.Read
import proofs.«168217_j52544629899901_1_alg».proof.Proof.RefTwice
import proofs.«168217_j52544629899901_1_alg».proof.Proof.HostStretches
import proofs.«168217_j52544629899901_1_alg».proof.Proof.MatmulRegion
import proofs.«168217_j52544629899901_1_alg».proof.Proof.CombineRegion

set_option maxRecDepth 16384

noncomputable section

namespace Cert.KernelIdeal.Walk

open Idealize.ShloMosaic Idealize.ShloMosaic.TcCoe Idealize.SL.Sem Idealize.ShloMosaic.StableHlo
open Idealize.ShloMosaic.Pipeline (Dat)
open Cert.KernelIdeal Cert.KernelIdeal.Gen
open Cert.ReferenceIdeal.Read

variable (m : (ℓ : Loc nD τ sig) → Buf (Elt Ideal) ℓ) (ρ : Dev nD → PrngReg) (c : Dev nD)

set_option quotPrecheck false in
local notation "x0" => m ((c : Thread nD τ).loc main_arg0)
set_option quotPrecheck false in
local notation "x1" => m ((c : Thread nD τ).loc main_arg1)
set_option quotPrecheck false in
local notation "x2" => m ((c : Thread nD τ).loc main_arg2)
set_option quotPrecheck false in
local notation "x4" => m ((c : Thread nD τ).loc main_arg4)
set_option quotPrecheck false in
local notation "x5" => m ((c : Thread nD τ).loc main_arg5)
set_option quotPrecheck false in
local notation "x6" => m ((c : Thread nD τ).loc main_arg6)
set_option quotPrecheck false in
local notation "x7" => m ((c : Thread nD τ).loc main_arg7)

/-! ## From the launch through the three stretches before the first product -/

theorem W1_v1 : W1 m ρ c (Proc.devRef .tc main_v1) = val_main_v1 (F := Ideal) x1 :=
  Cert.KernelIdeal.Stretches.S0_v1 (W0 m ρ c) x1 rfl
theorem W1_v3 : W1 m ρ c (Proc.devRef .tc main_v3) = val_main_v3 (F := Ideal) x1 :=
  Cert.KernelIdeal.Stretches.S0_v3 (W0 m ρ c) x1 rfl
theorem W1_v10 : W1 m ρ c (Proc.devRef .tc main_v10) = val_main_v12 (F := Ideal) x1 x2 :=
  Cert.KernelIdeal.Stretches.S0_v10 (W0 m ρ c) x1 x2 rfl rfl
theorem W1_v12 : W1 m ρ c (Proc.devRef .tc main_v12) = val_main_v14 (F := Ideal) x1 x2 :=
  Cert.KernelIdeal.Stretches.S0_v12 (W0 m ρ c) x1 x2 rfl rfl
theorem W1_cst_3 : W1 m ρ c (Proc.devRef .tc main_cst_3) = val_main_cst_3 (F := Ideal) :=
  Cert.KernelIdeal.Stretches.S0_cst_3 (W0 m ρ c)
theorem W1_arg0 : W1 m ρ c (Proc.devRef .tc main_arg0) = x0 :=
  (Cert.KernelIdeal.Stretches.K0_arg0 (W0 m ρ c)).trans rfl
theorem W1_arg2 : W1 m ρ c (Proc.devRef .tc main_arg2) = x2 :=
  (Cert.KernelIdeal.Stretches.K0_arg2 (W0 m ρ c)).trans rfl
theorem W1_arg4 : W1 m ρ c (Proc.devRef .tc main_arg4) = x4 :=
  (Cert.KernelIdeal.Stretches.K0_arg4 (W0 m ρ c)).trans rfl
theorem W1_arg5 : W1 m ρ c (Proc.devRef .tc main_arg5) = x5 :=
  (Cert.KernelIdeal.Stretches.K0_arg5 (W0 m ρ c)).trans rfl
theorem W1_arg6 : W1 m ρ c (Proc.devRef .tc main_arg6) = x6 :=
  (Cert.KernelIdeal.Stretches.K0_arg6 (W0 m ρ c)).trans rfl
theorem W1_arg7 : W1 m ρ c (Proc.devRef .tc main_arg7) = x7 :=
  (Cert.KernelIdeal.Stretches.K0_arg7 (W0 m ρ c)).trans rfl

theorem W2_v13 : W2 m ρ c (Proc.devRef .tc main_v13) = val_main_v15 (F := Ideal) x1 x2 :=
  Cert.KernelIdeal.Stretches.S1_v13 (W1 m ρ c) x1 x2 (W1_v10 m ρ c) (W1_v12 m ρ c) (W1_cst_3 m ρ c)
theorem W2_v1 : W2 m ρ c (Proc.devRef .tc main_v1) = val_main_v1 (F := Ideal) x1 :=
  (Cert.KernelIdeal.Stretches.K1_v1 (W1 m ρ c)).trans (W1_v1 m ρ c)
theorem W2_v3 : W2 m ρ c (Proc.devRef .tc main_v3) = val_main_v3 (F := Ideal) x1 :=
  (Cert.KernelIdeal.Stretches.K1_v3 (W1 m ρ c)).trans (W1_v3 m ρ c)
theorem W2_arg0 : W2 m ρ c (Proc.devRef .tc main_arg0) = x0 :=
  (Cert.KernelIdeal.Stretches.K1_arg0 (W1 m ρ c)).trans (W1_arg0 m ρ c)
theorem W2_arg2 : W2 m ρ c (Proc.devRef .tc main_arg2) = x2 :=
  (Cert.KernelIdeal.Stretches.K1_arg2 (W1 m ρ c)).trans (W1_arg2 m ρ c)
theorem W2_arg4 : W2 m ρ c (Proc.devRef .tc main_arg4) = x4 :=
  (Cert.KernelIdeal.Stretches.K1_arg4 (W1 m ρ c)).trans (W1_arg4 m ρ c)
theorem W2_arg5 : W2 m ρ c (Proc.devRef .tc main_arg5) = x5 :=
  (Cert.KernelIdeal.Stretches.K1_arg5 (W1 m ρ c)).trans (W1_arg5 m ρ c)
theorem W2_arg6 : W2 m ρ c (Proc.devRef .tc main_arg6) = x6 :=
  (Cert.KernelIdeal.Stretches.K1_arg6 (W1 m ρ c)).trans (W1_arg6 m ρ c)
theorem W2_arg7 : W2 m ρ c (Proc.devRef .tc main_arg7) = x7 :=
  (Cert.KernelIdeal.Stretches.K1_arg7 (W1 m ρ c)).trans (W1_arg7 m ρ c)

theorem W3_v29 : W3 m ρ c (Proc.devRef .tc main_v29) = val_main_v31 (F := Ideal) x1 x2 :=
  Cert.KernelIdeal.Stretches.S2_v29 (W2 m ρ c) x1 x2 (W2_v1 m ρ c) (W2_v3 m ρ c) (W2_v13 m ρ c) (W2_arg2 m ρ c)
theorem W3_v30 : W3 m ρ c (Proc.devRef .tc main_v30) = shapeCast S100000x1 (val_main_v15 (F := Ideal) x1 x2) shapeCasts_S100000_S100000x1 :=
  Cert.KernelIdeal.Stretches.S2_v30 (W2 m ρ c) x1 x2 (W2_v13 m ρ c)
theorem W3_v31 : W3 m ρ c (Proc.devRef .tc main_v31) = val_main_v4 (F := Ideal) x4 :=
  Cert.KernelIdeal.Stretches.S2_v31 (W2 m ρ c) x4 (W2_arg4 m ρ c)
theorem W3_v32 : W3 m ρ c (Proc.devRef .tc main_v32) = val_main_v54 (F := Ideal) x6 :=
  Cert.KernelIdeal.Stretches.S2_v32 (W2 m ρ c) x6 (W2_arg6 m ρ c)
theorem W3_v1 : W3 m ρ c (Proc.devRef .tc main_v1) = val_main_v1 (F := Ideal) x1 :=
  (Cert.KernelIdeal.Stretches.K2_v1 (W2 m ρ c)).trans (W2_v1 m ρ c)
theorem W3_v3 : W3 m ρ c (Proc.devRef .tc main_v3) = val_main_v3 (F := Ideal) x1 :=
  (Cert.KernelIdeal.Stretches.K2_v3 (W2 m ρ c)).trans (W2_v3 m ρ c)
theorem W3_arg0 : W3 m ρ c (Proc.devRef .tc main_arg0) = x0 :=
  (Cert.KernelIdeal.Stretches.K2_arg0 (W2 m ρ c)).trans (W2_arg0 m ρ c)
theorem W3_arg5 : W3 m ρ c (Proc.devRef .tc main_arg5) = x5 :=
  (Cert.KernelIdeal.Stretches.K2_arg5 (W2 m ρ c)).trans (W2_arg5 m ρ c)
theorem W3_arg7 : W3 m ρ c (Proc.devRef .tc main_arg7) = x7 :=
  (Cert.KernelIdeal.Stretches.K2_arg7 (W2 m ρ c)).trans (W2_arg7 m ρ c)

/-! ## The first product: the rows of x against the transposed first weights -/

theorem W4_v33 : W4 m ρ c (Proc.devRef .tc main_v33) = val_main_v5 (F := Ideal) x0 x4 := by
  refine (W4_arr m ρ c 2).trans ((Cert.KernelIdeal.MatmulRegion.arr0 (V3 m ρ) c).trans ?_)
  show Host.dotGeneral (F := Ideal) (φ₁ := .f32) (φ₂ := .f32) _ none (W3 m ρ c (Proc.devRef .tc main_arg0)) (W3 m ρ c (Proc.devRef .tc main_v31)) = _
  rw [W3_arg0, W3_v31]
  rfl
theorem W4_v29 : W4 m ρ c (Proc.devRef .tc main_v29) = val_main_v31 (F := Ideal) x1 x2 :=
  (W4_of_ne m ρ c main_v29 (by decide)).trans (W3_v29 m ρ c)
theorem W4_v30 : W4 m ρ c (Proc.devRef .tc main_v30) = shapeCast S100000x1 (val_main_v15 (F := Ideal) x1 x2) shapeCasts_S100000_S100000x1 :=
  (W4_of_ne m ρ c main_v30 (by decide)).trans (W3_v30 m ρ c)
theorem W4_v32 : W4 m ρ c (Proc.devRef .tc main_v32) = val_main_v54 (F := Ideal) x6 :=
  (W4_of_ne m ρ c main_v32 (by decide)).trans (W3_v32 m ρ c)
theorem W4_v1 : W4 m ρ c (Proc.devRef .tc main_v1) = val_main_v1 (F := Ideal) x1 :=
  (W4_of_ne m ρ c main_v1 (by decide)).trans (W3_v1 m ρ c)
theorem W4_v3 : W4 m ρ c (Proc.devRef .tc main_v3) = val_main_v3 (F := Ideal) x1 :=
  (W4_of_ne m ρ c main_v3 (by decide)).trans (W3_v3 m ρ c)
theorem W4_arg5 : W4 m ρ c (Proc.devRef .tc main_arg5) = x5 :=
  (W4_of_ne m ρ c main_arg5 (by decide)).trans (W3_arg5 m ρ c)
theorem W4_arg7 : W4 m ρ c (Proc.devRef .tc main_arg7) = x7 :=
  (W4_of_ne m ρ c main_arg7 (by decide)).trans (W3_arg7 m ρ c)

/-! ## The first layer's aggregate and bias row -/

theorem W5_v46 : W5 m ρ c (Proc.devRef .tc main_v46) = val_main_v44 (F := Ideal) x0 x1 x2 x4 :=
  Cert.KernelIdeal.Stretches.S3_v46 (W4 m ρ c) x0 x1 x2 x4 (W4_v29 m ρ c) (W4_v1 m ρ c) (W4_v3 m ρ c) (W4_v33 m ρ c)
theorem W5_v47 : W5 m ρ c (Proc.devRef .tc main_v47) = shapeCast S1x128 x5 shapeCasts_S128_S1x128 :=
  Cert.KernelIdeal.Stretches.S3_v47 (W4 m ρ c) x5 (W4_arg5 m ρ c)
theorem W5_v30 : W5 m ρ c (Proc.devRef .tc main_v30) = shapeCast S100000x1 (val_main_v15 (F := Ideal) x1 x2) shapeCasts_S100000_S100000x1 :=
  (Cert.KernelIdeal.Stretches.K3_v30 (W4 m ρ c)).trans (W4_v30 m ρ c)
theorem W5_v33 : W5 m ρ c (Proc.devRef .tc main_v33) = val_main_v5 (F := Ideal) x0 x4 :=
  (Cert.KernelIdeal.Stretches.K3_v33 (W4 m ρ c)).trans (W4_v33 m ρ c)
theorem W5_v32 : W5 m ρ c (Proc.devRef .tc main_v32) = val_main_v54 (F := Ideal) x6 :=
  (Cert.KernelIdeal.Stretches.K3_v32 (W4 m ρ c)).trans (W4_v32 m ρ c)
theorem W5_v29 : W5 m ρ c (Proc.devRef .tc main_v29) = val_main_v31 (F := Ideal) x1 x2 :=
  (Cert.KernelIdeal.Stretches.K3_v29 (W4 m ρ c)).trans (W4_v29 m ρ c)
theorem W5_v1 : W5 m ρ c (Proc.devRef .tc main_v1) = val_main_v1 (F := Ideal) x1 :=
  (Cert.KernelIdeal.Stretches.K3_v1 (W4 m ρ c)).trans (W4_v1 m ρ c)
theorem W5_v3 : W5 m ρ c (Proc.devRef .tc main_v3) = val_main_v3 (F := Ideal) x1 :=
  (Cert.KernelIdeal.Stretches.K3_v3 (W4 m ρ c)).trans (W4_v3 m ρ c)
theorem W5_arg7 : W5 m ρ c (Proc.devRef .tc main_arg7) = x7 :=
  (Cert.KernelIdeal.Stretches.K3_arg7 (W4 m ρ c)).trans (W4_arg7 m ρ c)

/-! ## The first combine: relu (agg + dinv² · xw + b) -/

theorem W6_v48 : W6 m ρ c (Proc.devRef .tc main_v48) = val_main_v53 (F := Ideal) x0 x1 x2 x4 x5 := by
  refine (W6_arr m ρ c 4).trans ((Cert.KernelIdeal.CombineRegion.arr1 (V5 m ρ) c (val_main_v15 (F := Ideal) x1 x2) x5 (W5_v30 m ρ c) (W5_v47 m ρ c)).trans ?_)
  rw [show V5 m ρ c main_v46 = _ from W5_v46 m ρ c, show V5 m ρ c main_v33 = _ from W5_v33 m ρ c]
  rfl
theorem W6_v32 : W6 m ρ c (Proc.devRef .tc main_v32) = val_main_v54 (F := Ideal) x6 :=
  (W6_of_ne m ρ c main_v32 (by decide)).trans (W5_v32 m ρ c)
theorem W6_v29 : W6 m ρ c (Proc.devRef .tc main_v29) = val_main_v31 (F := Ideal) x1 x2 :=
  (W6_of_ne m ρ c main_v29 (by decide)).trans (W5_v29 m ρ c)
theorem W6_v1 : W6 m ρ c (Proc.devRef .tc main_v1) = val_main_v1 (F := Ideal) x1 :=
  (W6_of_ne m ρ c main_v1 (by decide)).trans (W5_v1 m ρ c)
theorem W6_v3 : W6 m ρ c (Proc.devRef .tc main_v3) = val_main_v3 (F := Ideal) x1 :=
  (W6_of_ne m ρ c main_v3 (by decide)).trans (W5_v3 m ρ c)
theorem W6_arg7 : W6 m ρ c (Proc.devRef .tc main_arg7) = x7 :=
  (W6_of_ne m ρ c main_arg7 (by decide)).trans (W5_arg7 m ρ c)
theorem W6_v30 : W6 m ρ c (Proc.devRef .tc main_v30) = shapeCast S100000x1 (val_main_v15 (F := Ideal) x1 x2) shapeCasts_S100000_S100000x1 :=
  (W6_arr m ρ c 1).trans (((dat1 (V5 m ρ) c).arrAt_in 1 rfl _).trans ((A_eq1 (V5 m ρ) c 1).trans (W5_v30 m ρ c)))

/-! ## The second product: the rows of h against the transposed second weights -/

theorem W7_v49 : W7 m ρ c (Proc.devRef .tc main_v49) = val_main_v55 (F := Ideal) x0 x1 x2 x4 x5 x6 := by
  refine (W7_arr m ρ c 2).trans ((Cert.KernelIdeal.MatmulRegion.arr2 (V6 m ρ) c).trans ?_)
  show Host.dotGeneral (F := Ideal) (φ₁ := .f32) (φ₂ := .f32) _ none (W6 m ρ c (Proc.devRef .tc main_v48)) (W6 m ρ c (Proc.devRef .tc main_v32)) = _
  rw [W6_v48, W6_v32]
  rfl
theorem W7_v29 : W7 m ρ c (Proc.devRef .tc main_v29) = val_main_v31 (F := Ideal) x1 x2 :=
  (W7_of_ne m ρ c main_v29 (by decide)).trans (W6_v29 m ρ c)
theorem W7_v1 : W7 m ρ c (Proc.devRef .tc main_v1) = val_main_v1 (F := Ideal) x1 :=
  (W7_of_ne m ρ c main_v1 (by decide)).trans (W6_v1 m ρ c)
theorem W7_v3 : W7 m ρ c (Proc.devRef .tc main_v3) = val_main_v3 (F := Ideal) x1 :=
  (W7_of_ne m ρ c main_v3 (by decide)).trans (W6_v3 m ρ c)
theorem W7_v30 : W7 m ρ c (Proc.devRef .tc main_v30) = shapeCast S100000x1 (val_main_v15 (F := Ideal) x1 x2) shapeCasts_S100000_S100000x1 :=
  (W7_of_ne m ρ c main_v30 (by decide)).trans (W6_v30 m ρ c)
theorem W7_arg7 : W7 m ρ c (Proc.devRef .tc main_arg7) = x7 :=
  (W7_of_ne m ρ c main_arg7 (by decide)).trans (W6_arg7 m ρ c)

/-! ## The second layer's aggregate and bias row -/

theorem W8_v62 : W8 m ρ c (Proc.devRef .tc main_v62) = val_main_v94 (F := Ideal) x0 x1 x2 x4 x5 x6 :=
  Cert.KernelIdeal.Stretches.S4_v62 (W7 m ρ c) x0 x1 x2 x4 x5 x6 ((W7_v29 m ρ c).trans (Cert.ReferenceIdeal.Twice.norm_again x1 x2).symm) (W7_v1 m ρ c) (W7_v3 m ρ c) (W7_v49 m ρ c)
theorem W8_v63 : W8 m ρ c (Proc.devRef .tc main_v63) = shapeCast S1x64 x7 shapeCasts_S64_S1x64 :=
  Cert.KernelIdeal.Stretches.S4_v63 (W7 m ρ c) x7 (W7_arg7 m ρ c)
theorem W8_v30 : W8 m ρ c (Proc.devRef .tc main_v30) = shapeCast S100000x1 (val_main_v15 (F := Ideal) x1 x2) shapeCasts_S100000_S100000x1 :=
  (Cert.KernelIdeal.Stretches.K4_v30 (W7 m ρ c)).trans (W7_v30 m ρ c)
theorem W8_v49 : W8 m ρ c (Proc.devRef .tc main_v49) = val_main_v55 (F := Ideal) x0 x1 x2 x4 x5 x6 :=
  (Cert.KernelIdeal.Stretches.K4_v49 (W7 m ρ c)).trans (W7_v49 m ρ c)

/-! ## The second combine, and the result -/

/-- The result array after the last region is the reference's result stage of the launch contents of the arguments:
    the second combine's agg + dinv² · xw + b over the second aggregate, the degree column and the second product,
    with the degree vector read as the reference's second computation of it. -/
theorem W9_v64 : W9 m ρ c (Proc.devRef .tc main_v64) = val_main_v102 (F := Ideal) x0 x1 x2 x4 x5 x6 x7 := by
  have h30 : V8 m ρ c main_v30 = shapeCast S100000x1 (val_main_v65 (F := Ideal) x1 x2) shapeCasts_S100000_S100000x1 := by
    rw [Cert.ReferenceIdeal.Twice.dinv_again]; exact W8_v30 m ρ c
  refine (W9_arr m ρ c 4).trans ((Cert.KernelIdeal.CombineRegion.arr3 (V8 m ρ) c (val_main_v65 (F := Ideal) x1 x2) x7 h30 (W8_v63 m ρ c)).trans ?_)
  rw [show V8 m ρ c main_v62 = _ from W8_v62 m ρ c, show V8 m ρ c main_v49 = _ from W8_v49 m ρ c]
  rfl

end Cert.KernelIdeal.Walk

end
-- ==== Proof.lean ====
/-
  A two-layer graph convolution, tiled, against its plain reference: the certificate's five claims.

  Both programs compute, per layer, y = agg + dinv² · (x Wᵀ) + b with agg the scatter-add over the edges' targets of
  norm · (x Wᵀ)[source], norm = dinv[row] · w · dinv[col] and dinv the inverse square root of the weighted in-degree
  plus one (zero where that is not positive), a relu between the layers. The kernel program computes the degree
  normalisation once on the host and runs four tiled regions — the product x Wᵀ and the per-node combine, for each
  layer, over blocks of 5000 rows — with the gathers and scatter-adds on the host between them; the reference does
  everything on the host and recomputes the normalisation per layer. Over the extended reals a change of float format
  is the identity and a product into a zero accumulator is the exact sum, so the tiled product is the host's product
  row block by row block and the combine is the reference's three additions entry by entry: the two results are one
  function of the arguments with no algebraic law in between, and the precondition is not used.

  The frames of the two kernel programs are the generated frame certificates; the reference's frame is its generated
  run with the result dropped; the idealization rewrote no operation, so there is nothing to preserve. For the
  equivalence the kernel's run is read with its result named (KernelRun), that result is walked back through the
  program's segments to the reference's result stage of the arguments (KernelFold, over HostStretches, MatmulRegion
  and CombineRegion), and the reference's run ends at the same stage.
-/
import proofs.«168217_j52544629899901_1_alg».proof.Defs
import proofs.«168217_j52544629899901_1_alg».proof.Proof.Gen.Kernel
import proofs.«168217_j52544629899901_1_alg».proof.Proof.Gen.Kernel.Skeleton
import proofs.«168217_j52544629899901_1_alg».proof.Proof.Gen.Kernel.Launch
import proofs.«168217_j52544629899901_1_alg».proof.Proof.Gen.Kernel.Points
import proofs.«168217_j52544629899901_1_alg».proof.Proof.Gen.Kernel.Frame
import proofs.«168217_j52544629899901_1_alg».proof.Proof.Gen.KernelIdeal
import proofs.«168217_j52544629899901_1_alg».proof.Proof.Gen.KernelIdeal.Skeleton
import proofs.«168217_j52544629899901_1_alg».proof.Proof.Gen.KernelIdeal.Launch
import proofs.«168217_j52544629899901_1_alg».proof.Proof.Gen.KernelIdeal.Points
import proofs.«168217_j52544629899901_1_alg».proof.Proof.Gen.KernelIdeal.Frame
import proofs.«168217_j52544629899901_1_alg».proof.Proof.Gen.ReferenceIdeal
import proofs.«168217_j52544629899901_1_alg».proof.Proof.Gen.Pre_finite_inputs
import proofs.«168217_j52544629899901_1_alg».proof.Proof.Gen.ReferenceIdeal.Run
import proofs.«168217_j52544629899901_1_alg».proof.Proof.Gen.ReferenceIdeal.Read
import proofs.«168217_j52544629899901_1_alg».proof.Proof.KernelRun
import proofs.«168217_j52544629899901_1_alg».proof.Proof.KernelFold
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the reference's result stage of the arguments they agree on. -/
theorem algebraic : Cert.algebraic_KernelIdeal_ReferenceIdeal := by
  intro m ρ m' ρ' _ hagree
  refine ⟨fun c => Cert.KernelIdeal.Gen.W9 m ρ c (Proc.devRef .tc Cert.KernelIdeal.main_v64),
    Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Gen.W9 m ρ c (Proc.devRef .tc Cert.KernelIdeal.main_v64)
  rw [Cert.ReferenceIdeal.Read.val_main_v102_eq, (hagree c).1, (hagree c).2.1, (hagree c).2.2.1, (hagree c).2.2.2.2.1,
    (hagree c).2.2.2.2.2.1, (hagree c).2.2.2.2.2.2.1, (hagree c).2.2.2.2.2.2.2, Cert.KernelIdeal.Walk.W9_v64]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
